-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x4 : Shape := ⟨2, ![4096, 4]⟩
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x4 : S_.BroadcastsInDim S4096x4 (![] : Fin 0 → Fin S4096x4.rank)
  reducesTo_S4096x4_S_d0_1 : S4096x4.ReducesTo [0, 1] S_

variable [Facts]

def fn {F : FTy → Type} [FloatOps F] (main_arg0 : IVec S4096x4 32) (main_arg1 : FVec F S8192x1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 32 := constantI S_ 32 0#32
  let main_v4 : IVec S4096x4 32 := broadcastInDim S4096x4 ![] bcast_S_S4096x4 main_c_0
  let main_v5 : IVec S4096x4 1 := cmpi .sge main_arg0 main_v4
  let main_c_1 : IVec S_ 32 := constantI S_ 32 999#32
  let main_v6 : IVec S4096x4 32 := broadcastInDim S4096x4 ![] bcast_S_S4096x4 main_c_1
  let main_v7 : IVec S4096x4 1 := cmpi .sle main_arg0 main_v6
  let main_v8 : IVec S4096x4 1 := andi main_v5 main_v7
  let main_c_2 : IVec S_ 1 := constantI S_ 1 1#1
  let main_v9 : IVec S_ 1 := (fun x v => Host.reduce IntOp.andi x v reducesTo_S4096x4_S_d0_1 h_S_) main_v8 main_c_2
  let main_v10 : IVec S_ 1 := andi main_v3 main_v9
  main_v10
-- ==== Kernel.lean ====
abbrev S4096x4 : Shape := ⟨2, ![4096, 4]⟩
abbrev S8192x1024 : Shape := ⟨2, ![8192, 1024]⟩
abbrev S4096x4x1024 : Shape := ⟨3, ![4096, 4, 1024]⟩
abbrev S128x1024 : Shape := ⟨2, ![128, 1024]⟩
abbrev S_ : Shape := ⟨0, ![]⟩
abbrev S128x1x1024 : Shape := ⟨3, ![128, 1, 1024]⟩

abbrev nBuf : Table → Nat
  | .hbm => 3
  | .local .scVector .vmem => 1
  | _ => 0

abbrev bufTy : (tb : Table) → Fin (nBuf tb) → BufTy
  | .hbm, ⟨0, _⟩ => ⟨S4096x4, .i32⟩
  | .hbm, ⟨1, _⟩ => ⟨S8192x1024, .f32⟩
  | .hbm, ⟨2, _⟩ => ⟨S4096x4x1024, .f32⟩
  | .local .scVector .vmem, ⟨0, _⟩ => ⟨S128x1024, .f32⟩
  | _, _ => ⟨S4096x4, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_21_r0 : BitVec 32 := 0#32
  ![v2.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c0_i32_0 : BitVec 32 := 0#32
  ![v2.toNat, 0, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32 : BitVec 32 := 1#32
  let c0_i32_2 : BitVec 32 := 0#32
  ![v2.toNat, 1, 0]
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_4 : BitVec 32 := 2#32
  let c0_i32_5 : BitVec 32 := 0#32
  ![v2.toNat, 2, 0]
def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3_i32 : BitVec 32 := 3#32
  let c0_i32_7 : BitVec 32 := 0#32
  ![v2.toNat, 3, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S128x1x1024_S128x1024 : S128x1x1024.Squeezes S128x1024
  hcc0_scratch1 : 0 + S_.numel ≤ 2
  hcc0_scoped0 : 1 + S_.numel ≤ 2
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128x1024.size a ≤ S8192x1024.size a
  k0_off2_inb : ∀ i : grid0.Coords, ∀ a, (k0_off2 i) a + S128x1x1024.size a ≤ S4096x4x1024.size a
  k0_off3_inb : ∀ i : grid0.Coords, ∀ a, (k0_off3 i) a + S128x1x1024.size a ≤ S4096x4x1024.size a
  k0_off4_inb : ∀ i : grid0.Coords, ∀ a, (k0_off4 i) a + S128x1x1024.size a ≤ S4096x4x1024.size a
  k0_off5_inb : ∀ i : grid0.Coords, ∀ a, (k0_off5 i) a + S128x1x1024.size a ≤ S4096x4x1024.size a

variable [Facts₀]

abbrev cc0_scratch1 : DmaSems sig S_ := SemArray.consecutive 0 S_ hcc0_scratch1
abbrev cc0_scoped0 : DmaSems sig S_ := SemArray.consecutive 1 S_ hcc0_scoped0

class Facts : Prop extends Facts₀ where

variable [Facts]
-- ==== ReferenceIdeal.lean ====
abbrev S4096x4 : Shape := ⟨2, ![4096, 4]⟩
abbrev S8192x1024 : Shape := ⟨2, ![8192, 1024]⟩
abbrev S4096 : Shape := ⟨1, ![4096]⟩
abbrev S1x4096 : Shape := ⟨2, ![1, 4096]⟩
abbrev S4x4096 : Shape := ⟨2, ![4, 4096]⟩
abbrev S_ : Shape := ⟨0, ![]⟩
abbrev S4096x4x1 : Shape := ⟨3, ![4096, 4, 1]⟩
abbrev S1 : Shape := ⟨1, ![1]⟩
abbrev S1x1x1 : Shape := ⟨3, ![1, 1, 1]⟩
abbrev S4096x4x1024 : Shape := ⟨3, ![4096, 4, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x4, .i32⟩
  | .hbm, ⟨1, _⟩ => ⟨S8192x1024, .f32⟩
  | .hbm, ⟨2, _⟩ => ⟨S4096, .i32⟩
  | .hbm, ⟨3, _⟩ => ⟨S1x4096, .i32⟩
  | .hbm, ⟨4, _⟩ => ⟨S4x4096, .i32⟩
  | .hbm, ⟨5, _⟩ => ⟨S4096x4, .i32⟩
  | .hbm, ⟨6, _⟩ => ⟨S_, .i32⟩
  | .hbm, ⟨7, _⟩ => ⟨S4096x4, .i32⟩
  | .hbm, ⟨8, _⟩ => ⟨S4096x4, .i1⟩
  | .hbm, ⟨9, _⟩ => ⟨S_, .i32⟩
  | .hbm, ⟨10, _⟩ => ⟨S4096x4, .i32⟩
  | .hbm, ⟨11, _⟩ => ⟨S4096x4, .i32⟩
  | .hbm, ⟨12, _⟩ => ⟨S4096x4, .i32⟩
  | .hbm, ⟨13, _⟩ => ⟨S4096x4x1, .i32⟩
  | .hbm, ⟨14, _⟩ => ⟨S1, .i32⟩
  | .hbm, ⟨15, _⟩ => ⟨S_, .i32⟩
  | .hbm, ⟨16, _⟩ => ⟨S4096x4x1, .i32⟩
  | .hbm, ⟨17, _⟩ => ⟨S4096x4x1, .i1⟩
  | .hbm, ⟨18, _⟩ => ⟨S1x1x1, .i32⟩
  | .hbm, ⟨19, _⟩ => ⟨S4096x4x1, .i32⟩
  | .hbm, ⟨20, _⟩ => ⟨S4096x4x1, .i1⟩
  | .hbm, ⟨21, _⟩ => ⟨S4096x4x1, .i1⟩
  | .hbm, ⟨22, _⟩ => ⟨S_, .i1⟩
  | .hbm, ⟨23, _⟩ => ⟨S4096x4, .i1⟩
  | .hbm, ⟨24, _⟩ => ⟨S4096x4x1024, .f32⟩
  | .hbm, ⟨25, _⟩ => ⟨S4096x4x1024, .i1⟩
  | .hbm, ⟨26, _⟩ => ⟨S_, .f32⟩
  | .hbm, ⟨27, _⟩ => ⟨S4096x4x1024, .f32⟩
  | .hbm, ⟨28, _⟩ => ⟨S4096x4x1024, .f32⟩
  | _, _ => ⟨S4096x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4x4096_0_1 : S1x4096.BroadcastsInDim S4x4096 (![0, 1] : Fin 2 → Fin S4x4096.rank)
  transposes_S4x4096_S4096x4_1_0 : S4x4096.Transposes [1, 0] S4096x4
  bcast_S_S4096x4 : S_.BroadcastsInDim S4096x4 (![] : Fin 0 → Fin S4096x4.rank)
  bcast_S4096x4_S4096x4x1_0_1 : S4096x4.BroadcastsInDim S4096x4x1 (![0, 1] : Fin 2 → Fin S4096x4x1.rank)
  bcast_S_S4096x4x1 : S_.BroadcastsInDim S4096x4x1 (![] : Fin 0 → Fin S4096x4x1.rank)
  bcast_S1_S1x1x1_2 : S1.BroadcastsInDim S1x1x1 (![2] : Fin 1 → Fin S1x1x1.rank)
  bcast_S1x1x1_S4096x4x1_0_1_2 : S1x1x1.BroadcastsInDim S4096x4x1 (![0, 1, 2] : Fin 3 → Fin S4096x4x1.rank)
  reducesTo_S4096x4x1_S4096x4_d2 : S4096x4x1.ReducesTo [2] S4096x4
  h_S_ : 0 < S_.numel
  bcast_S4096x4_S4096x4x1024_0_1 : S4096x4.BroadcastsInDim S4096x4x1024 (![0, 1] : Fin 2 → Fin S4096x4x1024.rank)
  bcast_S_S4096x4x1024 : S_.BroadcastsInDim S4096x4x1024 (![] : Fin 0 → Fin S4096x4x1024.rank)
  gather_S8192x1024_S4096x4x1_S4096x4x1024_2_0_n_n_0_2_11024_wf : GatherDims.WF S8192x1024 S4096x4x1 S4096x4x1024 [2] [0] [] [0] [] 2 ![1, 1024]

variable [Facts₀]

def gather_S8192x1024_S4096x4x1_S4096x4x1024_2_0_n_n_0_2_11024 : GatherDims S8192x1024 S4096x4x1 S4096x4x1024 where
  offsetDims := [2]
  collapsedSliceDims := [0]
  operandBatchingDims := []
  startIndicesBatchingDims := []
  startIndexMap := [0]
  indexVectorDim := 2
  sliceSizes := ![1, 1024]
  wf := gather_S8192x1024_S4096x4x1_S4096x4x1024_2_0_n_n_0_2_11024_wf

class Facts : Prop extends Facts₀ where

variable [Facts]
-- ==== Proof.RowBlocks.lean ====
/-
  The index sets of the row blocks, and the function the kernel and the reference both compute.

  The table has 8192 rows of 1024 entries; the result has 4096 rows, each holding 4 copies of a row of 1024
  entries. Thirty-two workers (2 cores of 16 subcores; worker (c, s) has number 2·s + c) each own the block
  of 128 consecutive rows starting at row 256·s + 128·c: the worker reads that block of the table and writes
  it to the same rows of the result, once for each of the 4 copies. Here are the blocks as sets of indices —
  a block of table rows, and a block of result rows at one copy n —, the facts that distinct workers (or
  distinct copies) have disjoint blocks and that the result's blocks cover the result, and the function
  both sides compute: result[r, n, k] = table[r, k].
-/
import Idealize.ShloMosaic.Lib.ValueIdx
import Idealize.ShloMosaic.Shape

namespace Cert.Proof.RowBlocks

open Idealize.ShloMosaic Idealize.ShloMosaic.ValueIdx

/-- The table's shape and the result's. -/
abbrev TS : Shape := ⟨2, ![8192, 1024]⟩
abbrev OS : Shape := ⟨3, ![4096, 4, 1024]⟩

/-- The first row of worker (c, s)'s block. -/
def base (c s : ℕ) : ℕ := 256 * s + 128 * c

/-- The table's rows b, …, b + 127. -/
def tRows (b : ℕ) : Finset TS.Idx := Finset.univ.filter fun j => b ≤ (j 0).val ∧ (j 0).val < b + 128

/-- The result's rows b, …, b + 127 at copy n. -/
def oRows (b n : ℕ) : Finset OS.Idx := Finset.univ.filter fun j => b ≤ (j 0).val ∧ (j 0).val < b + 128 ∧ (j 1).val = n

theorem mem_tRows {b : ℕ} {j : TS.Idx} : j ∈ tRows b ↔ b ≤ (j 0).val ∧ (j 0).val < b + 128 := by
  unfold tRows; rw [Finset.mem_filter]; exact and_iff_right (Finset.mem_univ _)

theorem mem_oRows {b n : ℕ} {j : OS.Idx} : j ∈ oRows b n ↔ b ≤ (j 0).val ∧ (j 0).val < b + 128 ∧ (j 1).val = n := by
  unfold oRows; rw [Finset.mem_filter]; exact and_iff_right (Finset.mem_univ _)

/-- A rectangle of 128 whole rows of the table starting at row b is the block of rows b, …, b + 127. -/
theorem tRect_set (off : Fin 2 → ℕ) (inb : ∀ a, off a + (![128, 1024] : Fin 2 → ℕ) a ≤ TS.size a) (b : ℕ) (h : off = ![b, 0]) :
    (Rect.unit (s := TS) off ![128, 1024] inb).set = tRows b := by
  subst h
  ext i
  rw [Rect.mem_set_unit, mem_tRows]
  constructor
  · intro h; exact h 0
  · intro h a
    match a with
    | ⟨0, _⟩ => exact h
    | ⟨1, _⟩ =>
      have h1 : (i 1).val < 1024 := (i 1).isLt
      show 0 ≤ (i 1).val ∧ (i 1).val < 0 + 1024
      omega

/-- A rectangle of 128 rows of the result at the one copy n, starting at row b, is the block of those rows at n. -/
theorem oRect_set (off : Fin 3 → ℕ) (inb : ∀ a, off a + (![128, 1, 1024] : Fin 3 → ℕ) a ≤ OS.size a) (b n : ℕ) (h : off = ![b, n, 0]) :
    (Rect.unit (s := OS) off ![128, 1, 1024] inb).set = oRows b n := by
  subst h
  ext i
  rw [Rect.mem_set_unit, mem_oRows]
  constructor
  · intro h
    have h0 : b ≤ (i 0).val ∧ (i 0).val < b + 128 := h 0
    have h1 : n ≤ (i 1).val ∧ (i 1).val < n + 1 := h 1
    exact ⟨h0.1, h0.2, by omega⟩
  · intro h a
    match a with
    | ⟨0, _⟩ => exact ⟨h.1, h.2.1⟩
    | ⟨1, _⟩ =>
      show n ≤ (i 1).val ∧ (i 1).val < n + 1
      have := h.2.2; omega
    | ⟨2, _⟩ =>
      have h2 : (i 2).val < 1024 := (i 2).isLt
      show 0 ≤ (i 2).val ∧ (i 2).val < 0 + 1024
      omega

/-- Distinct workers own disjoint blocks of table rows. -/
theorem tRows_disjoint (p p' : Fin 2 × Fin 16) (h : p ≠ p') :
    Disjoint (tRows (base p.1.val p.2.val)) (tRows (base p'.1.val p'.2.val)) := by
  rw [Finset.disjoint_left]
  intro j hj hj'
  rw [mem_tRows] at hj hj'
  unfold base at hj hj'
  apply h
  have h1 := p.1.isLt; have h2 := p'.1.isLt; have h3 := p.2.isLt; have h4 := p'.2.isLt
  exact Prod.ext (Fin.ext (by omega)) (Fin.ext (by omega))

/-- Distinct (worker, copy) pairs own disjoint blocks of the result. -/
theorem oRows_disjoint (p p' : Fin 2 × Fin 16 × Fin 4) (h : p ≠ p') :
    Disjoint (oRows (base p.1.val p.2.1.val) p.2.2.val) (oRows (base p'.1.val p'.2.1.val) p'.2.2.val) := by
  rw [Finset.disjoint_left]
  intro j hj hj'
  rw [mem_oRows] at hj hj'
  unfold base at hj hj'
  apply h
  have h1 := p.1.isLt; have h2 := p'.1.isLt; have h3 := p.2.1.isLt; have h4 := p'.2.1.isLt
  exact Prod.ext (Fin.ext (by omega)) (Prod.ext (Fin.ext (by omega)) (Fin.ext (by omega)))

/-- Every entry of the result lies in the block of some worker at some copy. -/
theorem oRows_cover :
    (Finset.univ : Finset (Fin 2 × Fin 16 × Fin 4)).biUnion (fun p => oRows (base p.1.val p.2.1.val) p.2.2.val) = Finset.univ := by
  ext j
  simp only [Finset.mem_biUnion, Finset.mem_univ, true_and, iff_true]
  have h0 : (j 0).val < 4096 := (j 0).isLt
  have h1 : (j 1).val < 4 := (j 1).isLt
  refine ⟨(⟨(j 0).val / 128 % 2, by omega⟩, ⟨(j 0).val / 256, by omega⟩, ⟨(j 1).val, h1⟩), ?_⟩
  rw [mem_oRows]
  unfold base
  dsimp only
  omega

/-- What both programs compute: every copy n of result row r is table row r. -/
def bcastRows {α : Type} (T : TS.Idx → α) : OS.Idx → α :=
  fun i => T (ix2 ⟨(i 0).val, Nat.lt_of_lt_of_le (i 0).isLt (by decide : (4096 : ℕ) ≤ 8192)⟩ (i 2))

theorem bcastRows_apply {α : Type} (T : TS.Idx → α) (r : Fin 4096) (n : Fin 4) (k : Fin 1024) :
    bcastRows T (ix3 r n k) = T (ix2 ⟨r.val, by omega⟩ k) := rfl

end Cert.Proof.RowBlocks
-- ==== Proof.KBBody.lean ====
/-
  One worker's task of the row-broadcast kernel, run symbolically at a symbolic worker.

  Worker (c, s) — subcore s of core c, number 2·s + c — owns the 128 table rows starting at row 256·s + 128·c.
  Its task: copy those rows of the table into its row buffer and wait; start four copies of the buffer, one into the
  same rows of the result at each of the four copies n = 0 … 3, all four signalling one semaphore; wait four times.
  The four copies only read the buffer and write four disjoint blocks of the result, so nothing written is read
  while in flight, and after the fourth wait every one of the four has landed. What the worker leaves: its block of the
  table as it was, and result[r, n, k] = table[r, k] on its rows r, for every copy n and column k — because a block
  read back through the window it was written through is the payload, and the payload is the table's block.
-/
import proofs.«213697_g1829656068512_cont_8to1_927_13_alg».proof.Defs
import proofs.«213697_g1829656068512_cont_8to1_927_13_alg».proof.Proof.RowBlocks
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«213697_g1829656068512_cont_8to1_927_13_alg».proof.Proof.Gen.Kernel
import proofs.«213697_g1829656068512_cont_8to1_927_13_alg».proof.Proof.Gen.Kernel.Skeleton

noncomputable section

namespace Cert.Proof.KB

open Cert.Kernel Cert.Kernel.Gen
open Cert.Proof.RowBlocks (base tRows oRows bcastRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds beside the local copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The integer argument (which the kernel never touches), the table, and the result, as locations of device d. -/
abbrev aLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

variable [FloatOps F]

abbrev tW : Memref sig .scVector .hbm S8192x1024 .f32 := Memref.whole main_arg1_scv
abbrev oW : Memref sig .scVector .hbm S4096x4x1024 .f32 := Memref.whole main_v0_scv
/-- A worker's row buffer. -/
abbrev bW : Memref sig .scVector .vmem S128x1024 .f32 := Memref.whole cc0_scratch0

abbrev cV (L : grid0.Coords) : Fin τ.nSC := (L 0).castLE hcore0
abbrev jV (L : grid0.Coords) : Fin τ.nSub := (L 1).castLE hsub0

/-- The worker's block of table rows and its four blocks of result rows (one per copy), as the kernel slices them. -/
abbrev tRow (L : grid0.Coords) : Memref sig .scVector .hbm S128x1024 .f32 :=
  (tW).slice (Rect.unit (s := S8192x1024) (k0_off1 L) S128x1024.size (k0_off1_inb L)) (fun _ => rfl)
abbrev oWin0 (L : grid0.Coords) : Memref sig .scVector .hbm S128x1024 .f32 :=
  ((oW).slice (Rect.unit (s := S4096x4x1024) (k0_off2 L) S128x1x1024.size (k0_off2_inb L)) (fun _ => rfl)).squeeze S128x1024 squeezes_S128x1x1024_S128x1024
abbrev oWin1 (L : grid0.Coords) : Memref sig .scVector .hbm S128x1024 .f32 :=
  ((oW).slice (Rect.unit (s := S4096x4x1024) (k0_off3 L) S128x1x1024.size (k0_off3_inb L)) (fun _ => rfl)).squeeze S128x1024 squeezes_S128x1x1024_S128x1024
abbrev oWin2 (L : grid0.Coords) : Memref sig .scVector .hbm S128x1024 .f32 :=
  ((oW).slice (Rect.unit (s := S4096x4x1024) (k0_off4 L) S128x1x1024.size (k0_off4_inb L)) (fun _ => rfl)).squeeze S128x1024 squeezes_S128x1x1024_S128x1024
abbrev oWin3 (L : grid0.Coords) : Memref sig .scVector .hbm S128x1024 .f32 :=
  ((oW).slice (Rect.unit (s := S4096x4x1024) (k0_off5 L) S128x1x1024.size (k0_off5_inb L)) (fun _ => rfl)).squeeze S128x1024 squeezes_S128x1x1024_S128x1024

/-- The first row of the block of the worker at grid coordinates L. -/
abbrev bL (L : grid0.Coords) : ℕ := base (L 0).val (L 1).val

omit [FloatOps F] in
theorem set_tRow (L : grid0.Coords) : (tRow L).view.set = tRows (bL L) := by
  show ((View.whole (main_arg1_scv : Ref sig .scVector)).slice (Rect.unit (s := S8192x1024) (k0_off1 L) S128x1024.size (k0_off1_inb L))).set = _
  rw [View.set_slice_whole]
  exact RowBlocks.tRect_set _ _ _ (by rw [k0_off1_eq]; rfl)
omit [FloatOps F] in
theorem set_oWin0 (L : grid0.Coords) : (oWin0 L).view.set = oRows (bL L) 0 := by
  show (((View.whole (main_v0_scv : Ref sig .scVector)).slice (Rect.unit (s := S4096x4x1024) (k0_off2 L) S128x1x1024.size (k0_off2_inb L))).reshape S128x1024
    squeezes_S128x1x1024_S128x1024.numel_eq).set = _
  rw [View.set_reshape, View.set_slice_whole]
  exact RowBlocks.oRect_set _ _ _ _ (by rw [k0_off2_eq]; rfl)
omit [FloatOps F] in
theorem set_oWin1 (L : grid0.Coords) : (oWin1 L).view.set = oRows (bL L) 1 := by
  show (((View.whole (main_v0_scv : Ref sig .scVector)).slice (Rect.unit (s := S4096x4x1024) (k0_off3 L) S128x1x1024.size (k0_off3_inb L))).reshape S128x1024
    squeezes_S128x1x1024_S128x1024.numel_eq).set = _
  rw [View.set_reshape, View.set_slice_whole]
  exact RowBlocks.oRect_set _ _ _ _ (by rw [k0_off3_eq]; rfl)
omit [FloatOps F] in
theorem set_oWin2 (L : grid0.Coords) : (oWin2 L).view.set = oRows (bL L) 2 := by
  show (((View.whole (main_v0_scv : Ref sig .scVector)).slice (Rect.unit (s := S4096x4x1024) (k0_off4 L) S128x1x1024.size (k0_off4_inb L))).reshape S128x1024
    squeezes_S128x1x1024_S128x1024.numel_eq).set = _
  rw [View.set_reshape, View.set_slice_whole]
  exact RowBlocks.oRect_set _ _ _ _ (by rw [k0_off4_eq]; rfl)
omit [FloatOps F] in
theorem set_oWin3 (L : grid0.Coords) : (oWin3 L).view.set = oRows (bL L) 3 := by
  show (((View.whole (main_v0_scv : Ref sig .scVector)).slice (Rect.unit (s := S4096x4x1024) (k0_off5 L) S128x1x1024.size (k0_off5_inb L))).reshape S128x1024
    squeezes_S128x1x1024_S128x1024.numel_eq).set = _
  rw [View.set_reshape, View.set_slice_whole]
  exact RowBlocks.oRect_set _ _ _ _ (by rw [k0_off5_eq]; rfl)

/-! ## The worker's two semaphores and its buffer among what it owns -/

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch1.sem)

/-- What one worker is handed and hands back: its block of table rows at contents ft, and its four blocks of result rows
    (one per copy) at contents fo. -/
def blk (d : Dev nD) (ft : Buf (Elt F) (tLoc d)) (fo : Buf (Elt F) (oLoc d)) (c s : ℕ) : sProp 𝕄 :=
  iprop((tLoc d ↦[tRows (base c s)]{fullShare} ft) ∗ (oLoc d ↦[oRows (base c s) 0]{fullShare} fo) ∗ (oLoc d ↦[oRows (base c s) 1]{fullShare} fo)
    ∗ (oLoc d ↦[oRows (base c s) 2]{fullShare} fo) ∗ (oLoc d ↦[oRows (base c s) 3]{fullShare} fo))

section Tile

variable (d : Dev nD) (L : grid0.Coords)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch1.sem : SemLoc sig).isScoped .scVector = true; decide⟩⟩)]

omit [FloatOps F] in
/-- The row buffer is among the subcore's own: it, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
theorem pts_tRow (f : Buf (Elt F) (tLoc d)) :
    ((tRow L).view.loc (V d (cV L) (jV L)) ↦[(tRow L).view.set]{fullShare} f : sProp 𝕄) = tLoc d ↦[tRows (bL L)]{fullShare} f := by
  rw [set_tRow]
omit [FloatOps F] in
theorem pts_oWin0 (f : Buf (Elt F) (oLoc d)) :
    ((oWin0 L).view.loc (V d (cV L) (jV L)) ↦[(oWin0 L).view.set]{fullShare} f : sProp 𝕄) = oLoc d ↦[oRows (bL L) 0]{fullShare} f := by
  rw [set_oWin0]
omit [FloatOps F] in
theorem pts_oWin1 (f : Buf (Elt F) (oLoc d)) :
    ((oWin1 L).view.loc (V d (cV L) (jV L)) ↦[(oWin1 L).view.set]{fullShare} f : sProp 𝕄) = oLoc d ↦[oRows (bL L) 1]{fullShare} f := by
  rw [set_oWin1]
omit [FloatOps F] in
theorem pts_oWin2 (f : Buf (Elt F) (oLoc d)) :
    ((oWin2 L).view.loc (V d (cV L) (jV L)) ↦[(oWin2 L).view.set]{fullShare} f : sProp 𝕄) = oLoc d ↦[oRows (bL L) 2]{fullShare} f := by
  rw [set_oWin2]
omit [FloatOps F] in
theorem pts_oWin3 (f : Buf (Elt F) (oLoc d)) :
    ((oWin3 L).view.loc (V d (cV L) (jV L)) ↦[(oWin3 L).view.set]{fullShare} f : sProp 𝕄) = oLoc d ↦[oRows (bL L) 3]{fullShare} f := by
  rw [set_oWin3]
omit [FloatOps F] in
theorem pts_bW (f : Buf (Elt F) ((V d (cV L) (jV L)).loc cc0_scratch0)) :
    ((bW).view.loc (V d (cV L) (jV L)) ↦{fullShare} f : sProp 𝕄) = (V d (cV L) (jV L)).loc cc0_scratch0 ↦{fullShare} f := rfl

end Tile

/-! ## What a window holds after its copy: the table's rows -/

omit [FloatOps F] in
/-- A buffer written once through a whole view with the payload x agrees, on the view's elements, with any contents
    G that the view reads as x. -/
theorem writes_whole_eq_of_read {sig' : RefSig} {κ : Kind} {sp : Space} {s : Shape} {e : EltTy} {Val : EltTy → Type}
    (v : View sig' κ sp s e) (f G : v.ty.Contents Val) (x : s.Idx → Val e) (hG : v.read Val G = x)
    {i : v.ty.Idx} (hi : i ∈ v.set) : v.writes Val f [⟨Rect.whole s, x⟩] i = G i := by
  obtain ⟨y, -, rfl⟩ := Finset.mem_map.mp hi
  have h1 := congrFun (View.read_writes_whole v f x) y
  have h2 := congrFun hG y
  rw [View.read_apply] at h1 h2
  exact (cast_inj _).mp (h1.trans h2.symm)

omit [FloatOps F] in
/-- Dropping the middle unit axis of a [128, 1, 1024] block keeps row and column. -/
theorem squeeze_idx (y : S128x1024.Idx) :
    Shape.reshapeEquiv (squeezes_S128x1x1024_S128x1024).numel_eq y
      = (ValueIdx.ix3 (⟨(y 0).val, (y 0).isLt⟩ : Fin 128) (0 : Fin 1) (⟨(y 1).val, (y 1).isLt⟩ : Fin 1024) : S128x1x1024.Idx) := by
  refine Shape.reshapeEquiv_eq_of_rowMajor _ ?_
  rw [Shape.rowMajor_val_three, Shape.rowMajor_val_two]
  show ((y 0).val * 1 + 0) * 1024 + (y 1).val = (y 0).val * 1024 + (y 1).val
  omega

section Win
variable (d : Dev nD) (L : grid0.Coords)

omit [FloatOps F] in
/-- Read through the worker's block of the result at copy n (rows bL L …, the copy's axis dropped), the function
    "every copy of row r is table row r" is the table read through the worker's block of table rows. -/
theorem read_win (off : Fin 3 → ℕ) (inb : ∀ a, off a + S128x1x1024.size a ≤ S4096x4x1024.size a) (n : ℕ) (hoff : off = ![bL L, n, 0])
    (T : Buf (Elt F) (tLoc d)) :
    (((oW).slice (Rect.unit (s := S4096x4x1024) off S128x1x1024.size inb) (fun _ => rfl)).squeeze S128x1024 squeezes_S128x1x1024_S128x1024).view.read (Elt F)
        (bcastRows T : Buf (Elt F) (oLoc d))
      = (tRow L).view.read (Elt F) T := by
  subst hoff
  funext y
  show bcastRows T ((Rect.unit (s := S4096x4x1024) ![bL L, n, 0] S128x1x1024.size inb).emb (Shape.reshapeEquiv (squeezes_S128x1x1024_S128x1024).numel_eq y))
    = T ((Rect.unit (s := S8192x1024) (k0_off1 L) S128x1024.size (k0_off1_inb L)).emb y)
  rw [squeeze_idx]
  unfold bcastRows
  refine congrArg T (funext fun a => Fin.ext ?_)
  match a with
  | ⟨0, _⟩ =>
    show bL L + 1 * (y 0).val = (k0_off1 L) 0 + 1 * (y 0).val
    rw [k0_off1_eq]; rfl
  | ⟨1, _⟩ =>
    show 0 + 1 * (y 1).val = (k0_off1 L) 1 + 1 * (y 1).val
    rw [k0_off1_eq]; rfl

omit [FloatOps F] in
/-- After the buffer has received the worker's table rows and been copied into a window of the result, the window holds,
    at each of its entries, the table's row of the same number. -/
theorem landed_eq (off : Fin 3 → ℕ) (inb : ∀ a, off a + S128x1x1024.size a ≤ S4096x4x1024.size a) (n : ℕ) (hoff : off = ![bL L, n, 0])
    (T : Buf (Elt F) (tLoc d)) (fo : Buf (Elt F) (oLoc d)) (fb : Buf (Elt F) ((V d (cV L) (jV L)).loc cc0_scratch0))
    (i : (oLoc d).ty.shape.Idx)
    (hi : i ∈ (((oW).slice (Rect.unit (s := S4096x4x1024) off S128x1x1024.size inb) (fun _ => rfl)).squeeze S128x1024 squeezes_S128x1x1024_S128x1024).view.set) :
    (((oW).slice (Rect.unit (s := S4096x4x1024) off S128x1x1024.size inb) (fun _ => rfl)).squeeze S128x1024 squeezes_S128x1x1024_S128x1024).view.writes (Elt F) fo
        [⟨Rect.whole S128x1024, ReadAs.same.apply ((bW).view.read (Elt F) ((bW).view.write (Elt F) fb (ReadAs.same.apply ((tRow L).view.read (Elt F) T)) Finset.univ))⟩] i
      = (bcastRows T : Buf (Elt F) (oLoc d)) i := by
  refine writes_whole_eq_of_read
    (((oW).slice (Rect.unit (s := S4096x4x1024) off S128x1x1024.size inb) (fun _ => rfl)).squeeze S128x1024 squeezes_S128x1x1024_S128x1024).view
    fo (bcastRows T : Buf (Elt F) (oLoc d)) _ ?_ hi
  rw [read_win d L off inb n hoff T]
  exact (View.read_write_univ (v := (bW).view) (Val := Elt F) fb _).symm

end Win

section Tile2

variable (d : Dev nD) (L : grid0.Coords)

omit [FloatOps F] in
/-- A window of the result after the two copies, as the TensorCore names it: the worker's rows at one copy, holding the
    table's rows. -/
theorem win_pts (off : Fin 3 → ℕ) (inb : ∀ a, off a + S128x1x1024.size a ≤ S4096x4x1024.size a) (n : ℕ) (hoff : off = ![bL L, n, 0])
    (hset : (((oW).slice (Rect.unit (s := S4096x4x1024) off S128x1x1024.size inb) (fun _ => rfl)).squeeze S128x1024 squeezes_S128x1x1024_S128x1024).view.set = oRows (bL L) n)
    (T : Buf (Elt F) (tLoc d)) (fo : Buf (Elt F) (oLoc d)) (fb : Buf (Elt F) ((V d (cV L) (jV L)).loc cc0_scratch0)) :
    ((((oW).slice (Rect.unit (s := S4096x4x1024) off S128x1x1024.size inb) (fun _ => rfl)).squeeze S128x1024 squeezes_S128x1x1024_S128x1024).view.loc (V d (cV L) (jV L))
        ↦[(((oW).slice (Rect.unit (s := S4096x4x1024) off S128x1x1024.size inb) (fun _ => rfl)).squeeze S128x1024 squeezes_S128x1x1024_S128x1024).view.set]{fullShare}
          (((oW).slice (Rect.unit (s := S4096x4x1024) off S128x1x1024.size inb) (fun _ => rfl)).squeeze S128x1024 squeezes_S128x1x1024_S128x1024).view.writes (Elt F) fo
            [⟨Rect.whole S128x1024, ReadAs.same.apply ((bW).view.read (Elt F) ((bW).view.write (Elt F) fb (ReadAs.same.apply ((tRow L).view.read (Elt F) T)) Finset.univ))⟩] : sProp 𝕄)
      = oLoc d ↦[oRows (bL L) n]{fullShare} (bcastRows T : Buf (Elt F) (oLoc d)) := by
  rw [hset]
  exact pointsTo_congr fun i hi => landed_eq d L off inb n hoff T fo fb i (hset ▸ hi)

/-- The task of the worker at grid coordinates L on device d: its block of table rows into its buffer, the buffer into
    the same rows of the result at each of the four copies, and the waits. From the worker's block of the table and its four
    blocks of the result; afterwards the table's block is as it was and the four blocks of the result hold the table's
    rows. -/
theorem tile_body (hF : (K (F := F)).Facts) (O : CellTallies nD τ sig (HIx 1)) (W : Waits sig (HIx 1)) (hO : ∀ g, O g none = 0) :
    (iprop(levAts (K (F := F)).L (K (F := F)).lev ∗ emp
        ∗ blk d (m (tLoc d)) (m (oLoc d)) (L 0).val (L 1).val
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_broadcast_rows L tW (Memref.isWhole_whole _) oW (Memref.isWhole_whole _) bW (Memref.isWhole_whole _) cc0_scratch1 cc0_scoped0)
          fun _ => iprop(blk d (m (tLoc d)) (bcastRows (m (tLoc d)) : Buf (Elt F) (oLoc d)) (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  have _plan : Transfers.BatchOf (V d (cV L) (jV L)) (SemLoc.dma (sig := sig) cc0_scratch1.sem) 4 (windows := true) := trivial
  unfold blk
  simp only [cc0_broadcast_rows_eq_skeleton]; unfold cc0_broadcast_rows_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Ht, Ho0, Ho1, Ho2, Ho3⟩, ⟨⟨%fb, Hb⟩, Hbufs⟩, ⟨HsemA, HsemB, Hsems⟩, HO⟩
  ihave Hmw := ((K (F := F)).mayWaits_none (thr := V d (cV L) (jV L)) hO) $$ Hlv
  ihave Ht' := (Entails.of_eq (pts_tRow (F := F) d L _).symm) $$ Ht
  ihave Ho0' := (Entails.of_eq (pts_oWin0 (F := F) d L _).symm) $$ Ho0
  ihave Ho1' := (Entails.of_eq (pts_oWin1 (F := F) d L _).symm) $$ Ho1
  ihave Ho2' := (Entails.of_eq (pts_oWin2 (F := F) d L _).symm) $$ Ho2
  ihave Ho3' := (Entails.of_eq (pts_oWin3 (F := F) d L _).symm) $$ Ho3
  ihave Hb' := (Entails.of_eq (pts_bW (F := F) d L _).symm) $$ Hb
  sl_exec
  sl_unfold_run_names
  rw [wp_ret]; imodintro
  ihave Ht := (Entails.of_eq (pts_tRow (F := F) d L _)) $$ Ht'
  ihave Ho0 := (Entails.of_eq (win_pts (F := F) d L (k0_off2 L) (k0_off2_inb L) 0 (by rw [k0_off2_eq]; rfl) (set_oWin0 L) (m (tLoc d)) (m (oLoc d)) fb)) $$ Ho0'
  ihave Ho1 := (Entails.of_eq (win_pts (F := F) d L (k0_off3 L) (k0_off3_inb L) 1 (by rw [k0_off3_eq]; rfl) (set_oWin1 L) (m (tLoc d)) (m (oLoc d)) fb)) $$ Ho1'
  ihave Ho2 := (Entails.of_eq (win_pts (F := F) d L (k0_off4 L) (k0_off4_inb L) 2 (by rw [k0_off4_eq]; rfl) (set_oWin2 L) (m (tLoc d)) (m (oLoc d)) fb)) $$ Ho2'
  ihave Ho3 := (Entails.of_eq (win_pts (F := F) d L (k0_off5 L) (k0_off5_inb L) 3 (by rw [k0_off5_eq]; rfl) (set_oWin3 L) (m (tLoc d)) (m (oLoc d)) fb)) $$ Ho3'
  ihave Hb := (Entails.of_eq (pts_bW (F := F) d L _)) $$ Hb'
  isplitl [Ht Ho0 Ho1 Ho2 Ho3]
  · isplitl [Ht]; · iexact Ht
    isplitl [Ho0]; · iexact Ho0
    isplitl [Ho1]; · iexact Ho1
    isplitl [Ho2]; · iexact Ho2
    iexact Ho3
  isplitl [Hb Hbufs]
  · isplitl [Hb]
    · iexists _; iexact Hb
    · iexact Hbufs
  isplitl [HsemA HsemB Hsems]
  · isplitl [HsemA]; · iexact HsemA
    isplitl [HsemB]; · iexact HsemB
    iexact Hsems
  iexists (insert (SemLoc.dma cc0_scratch1.sem, (default : HIx 1)) (insert (SemLoc.dma cc0_scratch1.sem, (default : HIx 1))
    (insert (SemLoc.dma cc0_scratch1.sem, (default : HIx 1)) (insert (SemLoc.dma cc0_scratch1.sem, (default : HIx 1))
      (insert (SemLoc.dma cc0_scoped0.sem, (default : HIx 1)) W))))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile2

end Cert.Proof.KB

end
-- ==== Proof.KBLaunch.lean ====
/-
  The row-broadcast kernel's run on the whole device: every weakly fair execution of the TensorCore's program, the two
  sequencers and the thirty-two workers terminates, and leaves the result at "every copy of row r is table row r", the
  two arguments unchanged.

  Before the call the TensorCore holds the table and the result whole. It cuts them into the workers' blocks — the
  table's first 4096 rows into thirty-two blocks of 128 rows (the remaining rows stay with the TensorCore), the result
  into thirty-two times four blocks, one per worker and copy, which cover it — and hands each core its sixteen workers'
  blocks; the sequencer hands each worker its own. Every worker gives its blocks back holding the table's rows
  (the task, proved once at a symbolic worker). Since all workers' blocks of the result are restrictions of ONE function of
  the table, they join back into the result whole at that function.
-/
import proofs.«213697_g1829656068512_cont_8to1_927_13_alg».proof.Proof.KBBody

noncomputable section

namespace Cert.Proof.KB

open Cert.Kernel Cert.Kernel.Gen
open Cert.Proof.RowBlocks (base tRows oRows bcastRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry -/

/-- The call hands core c its sixteen workers' blocks, the result's at the launch contents, and takes them back with the
    result's at the table's rows; the sequencer hands worker i its own and takes them back. -/
def P : (K (F := F)).Pay (nD := nD) (Val := Elt F) (Name := ℕ) (U := UU) where
  st := fun q d c => bigSep Finset.univ fun i : Fin ((K (F := F)).nSub q) => blk d (m (tLoc d)) (m (oLoc d)) c.val i.val
  dn := fun q d c => bigSep Finset.univ fun i : Fin ((K (F := F)).nSub q) => blk d (m (tLoc d)) (bcastRows (m (tLoc d)) : Buf (Elt F) (oLoc d)) c.val i.val
  go := fun _ d c i => blk d (m (tLoc d)) (m (oLoc d)) c.val i.val
  td := fun _ d c i => blk d (m (tLoc d)) (bcastRows (m (tLoc d)) : Buf (Elt F) (oLoc d)) c.val i.val
  x := fun _ _ => iprop(emp)

omit [FloatOps F] in
instance blk_storable (d : Dev nD) (ft : Buf (Elt F) (tLoc d)) (fo : Buf (Elt F) (oLoc d)) (c s : ℕ) :
    BI.Storable (upEmb : UEmb _ 𝕄) (blk d ft fo c s) := by
  unfold blk; infer_instance

instance P_storable : (P (F := F) m).IsStorable where
  st q d c := by dsimp only [P]; infer_instance
  dn q d c := by dsimp only [P]; infer_instance
  go q d c i := by dsimp only [P]; infer_instance
  td q d c i := by dsimp only [P]; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_broadcast_rows (coordsV c s)
          tW (Memref.isWhole_whole _) oW (Memref.isWhole_whole _) bW (Memref.isWhole_whole _) cc0_scratch1 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A core's share IS its workers' shares: nothing to split. -/
theorem vecSplit : (K (F := F)).VecSplit' (P m) 0 := by
  intro d c
  show (bigSep Finset.univ fun i : Fin ((K (F := F)).nSub 0) => blk d (m (tLoc d)) (m (oLoc d)) c.val i.val) ⊢ |={Set.univ}=> iprop(
      (bigSep Finset.univ fun i : Fin ((K (F := F)).nSub 0) => blk d (m (tLoc d)) (m (oLoc d)) c.val i.val)
      ∗ ((bigSep Finset.univ fun i : Fin ((K (F := F)).nSub 0) => blk d (m (tLoc d)) (bcastRows (m (tLoc d)) : Buf (Elt F) (oLoc d)) c.val i.val)
          -∗ (bigSep Finset.univ fun i : Fin ((K (F := F)).nSub 0) => blk d (m (tLoc d)) (bcastRows (m (tLoc d)) : Buf (Elt F) (oLoc d)) c.val i.val)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays cut into the workers' blocks, and joined back -/

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The table's rows that some worker owns: the first 4096. -/
def tAll : Finset RowBlocks.TS.Idx := (Finset.univ : Finset (Fin 2 × Fin 16)).biUnion fun p => tRows (base p.1.val p.2.val)

omit [FloatOps F] in
theorem tPts_blocks (d : Dev nD) (ft : Buf (Elt F) (tLoc d)) :
    (tLoc d ↦[tAll]{fullShare} ft : sProp 𝕄)
      = bigSep Finset.univ fun c : Fin 2 => bigSep Finset.univ fun s : Fin 16 => (tLoc d ↦[tRows (base c.val s.val)]{fullShare} ft : sProp 𝕄) := by
  unfold tAll
  rw [pointsTo_biUnion Finset.univ (ℓ := tLoc d) (fun p : Fin 2 × Fin 16 => tRows (base p.1.val p.2.val)) (fun p _ p' _ h => RowBlocks.tRows_disjoint p p' h),
    bigSep_univ_prod]

omit [FloatOps F] in
theorem oPts_blocks (d : Dev nD) (fo : Buf (Elt F) (oLoc d)) :
    (oLoc d ↦{fullShare} fo : sProp 𝕄)
      = bigSep Finset.univ fun c : Fin 2 => bigSep Finset.univ fun s : Fin 16 =>
          iprop((oLoc d ↦[oRows (base c.val s.val) 0]{fullShare} fo) ∗ (oLoc d ↦[oRows (base c.val s.val) 1]{fullShare} fo)
            ∗ (oLoc d ↦[oRows (base c.val s.val) 2]{fullShare} fo) ∗ (oLoc d ↦[oRows (base c.val s.val) 3]{fullShare} fo)) := by
  have h1 : (oLoc d ↦{fullShare} fo : sProp 𝕄)
      = oLoc d ↦[(Finset.univ : Finset (Fin 2 × Fin 16 × Fin 4)).biUnion fun p => oRows (base p.1.val p.2.1.val) p.2.2.val]{fullShare} fo := by
    rw [RowBlocks.oRows_cover]
  rw [h1, pointsTo_biUnion Finset.univ (ℓ := oLoc d) (fun p : Fin 2 × Fin 16 × Fin 4 => oRows (base p.1.val p.2.1.val) p.2.2.val)
      (fun p _ p' _ h => RowBlocks.oRows_disjoint p p' h), bigSep_univ_prod]
  refine bigSep_congr fun c _ => ?_
  rw [bigSep_univ_prod]
  refine bigSep_congr fun s _ => ?_
  exact bigSep_fin4 (F := F) _

omit [FloatOps F] in
/-- The workers' rows of the table and the result whole are all the workers' blocks. -/
theorem blocks_eq (d : Dev nD) (ft : Buf (Elt F) (tLoc d)) (fo : Buf (Elt F) (oLoc d)) :
    (iprop((tLoc d ↦[tAll]{fullShare} ft) ∗ (oLoc d ↦{fullShare} fo)) : sProp 𝕄)
      = bigSep Finset.univ fun c : Fin 2 => bigSep Finset.univ fun s : Fin 16 => blk d ft fo c.val s.val := by
  rw [tPts_blocks, oPts_blocks, ← bigSep_sep']
  refine bigSep_congr fun c _ => ?_
  rw [← bigSep_sep']
  rfl

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = bigSep Finset.univ fun c : Fin 2 => bigSep Finset.univ fun s : Fin 16 => blk d (m (tLoc d)) (m (oLoc d)) c.val s.val := rfl
theorem dn0_eq (d : Dev nD) : (bigSep Finset.univ fun c : Fin ((K (F := F)).nCore 0) => (P m).dn 0 d c)
    = bigSep Finset.univ fun c : Fin 2 => bigSep Finset.univ fun s : Fin 16 => blk d (m (tLoc d)) (bcastRows (m (tLoc d)) : Buf (Elt F) (oLoc d)) c.val s.val := rfl

/-- What @main leaves the claim: the two arguments at their launch contents, the result at the table's rows. -/
abbrev FIN (d : Dev nD) : sProp 𝕄 :=
  iprop((aLoc d ↦{fullShare} m (aLoc d)) ∗ (tLoc d ↦{fullShare} m (tLoc d)) ∗ (oLoc d ↦{fullShare} (bcastRows (m (tLoc d)) : Buf (Elt F) (oLoc d))))

/-- @main on device d's TensorCore: the one call, from the table and the result cut into the workers' blocks. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ht, Ho⟩, -, -⟩, -⟩
  ihave Ht2 := (pointsTo_split_subset (ℓ := tLoc d) (q := fullShare) (f := m (tLoc d)) (Finset.subset_univ tAll)).1 $$ Ht
  icases Ht2 with ⟨Htw, Htr⟩
  ihave Hblk := (Entails.of_eq (blocks_eq (F := F) d (m (tLoc d)) (m (oLoc d)))) $$ [Htw Ho]
  · isplitl [Htw] <;> iassumption
  iapply ((K (F := F)).wp_run (D (F := F)) 𝒱 (EH := EH) (P := P m) κ d 0) $$ [Hst Hblk Ha Htr]
  isplitr; · iexact Hctx
  isplitl [Hst]; · iexact Hst
  isplitl [Hblk]
  · rw [st0_eq]; iexact Hblk
  iintro ⟨Hst, Hdn⟩
  ihave Hdn' := (Entails.of_eq ((dn0_eq m d).trans (blocks_eq (F := F) d (m (tLoc d)) (bcastRows (m (tLoc d)) : Buf (Elt F) (oLoc d))).symm)) $$ Hdn
  icases Hdn' with ⟨Htw, Ho⟩
  ihave Ht := (pointsTo_split_subset (ℓ := tLoc d) (q := fullShare) (f := m (tLoc d)) (Finset.subset_univ tAll)).2 $$ [Htw Htr]
  · isplitl [Htw] <;> iassumption
  imodintro
  isplitl [Hst]; · iexact Hst
  isplitl [Ha]; · iexact Ha
  isplitl [Ht]; · iexact Ht
  iexact Ho

def fq (d : Dev nD) (s' : Phys nD τ sig (Elt F)) : Prop :=
  s'.mem.mem (aLoc d) = m (aLoc d) ∧ s'.mem.mem (tLoc d) = m (tLoc d) ∧ s'.mem.mem (oLoc d) = (bcastRows (m (tLoc d)) : Buf (Elt F) (oLoc d))

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := (bcastRows (m (tLoc d)) : Buf (Elt F) (oLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r => ∀ c : Dev nD,
  r.2.mem (oLoc c) = (bcastRows (m (tLoc c)) : Buf (Elt F) (oLoc c)) ∧ r.2.mem (aLoc c) = m (aLoc c) ∧ r.2.mem (tLoc c) = m (tLoc c)

/-- Every weakly fair execution of the device's threads terminates, nothing faulting; the result ends at "every copy of row
    r is table row r" of the launch table, and the two arguments end unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.Proof.KB

end
-- ==== Proof.KIBody.lean ====
/-
  One worker's task of the row-broadcast kernel, run symbolically at a symbolic worker.

  Worker (c, s) — subcore s of core c, number 2·s + c — owns the 128 table rows starting at row 256·s + 128·c.
  Its task: copy those rows of the table into its row buffer and wait; start four copies of the buffer, one into the
  same rows of the result at each of the four copies n = 0 … 3, all four signalling one semaphore; wait four times.
  The four copies only read the buffer and write four disjoint blocks of the result, so nothing written is read
  while in flight, and after the fourth wait every one of the four has landed. What the worker leaves: its block of the
  table as it was, and result[r, n, k] = table[r, k] on its rows r, for every copy n and column k — because a block
  read back through the window it was written through is the payload, and the payload is the table's block.
-/
import proofs.«213697_g1829656068512_cont_8to1_927_13_alg».proof.Defs
import proofs.«213697_g1829656068512_cont_8to1_927_13_alg».proof.Proof.RowBlocks
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«213697_g1829656068512_cont_8to1_927_13_alg».proof.Proof.Gen.KernelIdeal
import proofs.«213697_g1829656068512_cont_8to1_927_13_alg».proof.Proof.Gen.KernelIdeal.Skeleton

noncomputable section

namespace Cert.Proof.KI

open Cert.KernelIdeal Cert.KernelIdeal.Gen
open Cert.Proof.RowBlocks (base tRows oRows bcastRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds beside the local copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The integer argument (which the kernel never touches), the table, and the result, as locations of device d. -/
abbrev aLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

variable [FloatOps F]

abbrev tW : Memref sig .scVector .hbm S8192x1024 .f32 := Memref.whole main_arg1_scv
abbrev oW : Memref sig .scVector .hbm S4096x4x1024 .f32 := Memref.whole main_v0_scv
/-- A worker's row buffer. -/
abbrev bW : Memref sig .scVector .vmem S128x1024 .f32 := Memref.whole cc0_scratch0

abbrev cV (L : grid0.Coords) : Fin τ.nSC := (L 0).castLE hcore0
abbrev jV (L : grid0.Coords) : Fin τ.nSub := (L 1).castLE hsub0

/-- The worker's block of table rows and its four blocks of result rows (one per copy), as the kernel slices them. -/
abbrev tRow (L : grid0.Coords) : Memref sig .scVector .hbm S128x1024 .f32 :=
  (tW).slice (Rect.unit (s := S8192x1024) (k0_off1 L) S128x1024.size (k0_off1_inb L)) (fun _ => rfl)
abbrev oWin0 (L : grid0.Coords) : Memref sig .scVector .hbm S128x1024 .f32 :=
  ((oW).slice (Rect.unit (s := S4096x4x1024) (k0_off2 L) S128x1x1024.size (k0_off2_inb L)) (fun _ => rfl)).squeeze S128x1024 squeezes_S128x1x1024_S128x1024
abbrev oWin1 (L : grid0.Coords) : Memref sig .scVector .hbm S128x1024 .f32 :=
  ((oW).slice (Rect.unit (s := S4096x4x1024) (k0_off3 L) S128x1x1024.size (k0_off3_inb L)) (fun _ => rfl)).squeeze S128x1024 squeezes_S128x1x1024_S128x1024
abbrev oWin2 (L : grid0.Coords) : Memref sig .scVector .hbm S128x1024 .f32 :=
  ((oW).slice (Rect.unit (s := S4096x4x1024) (k0_off4 L) S128x1x1024.size (k0_off4_inb L)) (fun _ => rfl)).squeeze S128x1024 squeezes_S128x1x1024_S128x1024
abbrev oWin3 (L : grid0.Coords) : Memref sig .scVector .hbm S128x1024 .f32 :=
  ((oW).slice (Rect.unit (s := S4096x4x1024) (k0_off5 L) S128x1x1024.size (k0_off5_inb L)) (fun _ => rfl)).squeeze S128x1024 squeezes_S128x1x1024_S128x1024

/-- The first row of the block of the worker at grid coordinates L. -/
abbrev bL (L : grid0.Coords) : ℕ := base (L 0).val (L 1).val

omit [FloatOps F] in
theorem set_tRow (L : grid0.Coords) : (tRow L).view.set = tRows (bL L) := by
  show ((View.whole (main_arg1_scv : Ref sig .scVector)).slice (Rect.unit (s := S8192x1024) (k0_off1 L) S128x1024.size (k0_off1_inb L))).set = _
  rw [View.set_slice_whole]
  exact RowBlocks.tRect_set _ _ _ (by rw [k0_off1_eq]; rfl)
omit [FloatOps F] in
theorem set_oWin0 (L : grid0.Coords) : (oWin0 L).view.set = oRows (bL L) 0 := by
  show (((View.whole (main_v0_scv : Ref sig .scVector)).slice (Rect.unit (s := S4096x4x1024) (k0_off2 L) S128x1x1024.size (k0_off2_inb L))).reshape S128x1024
    squeezes_S128x1x1024_S128x1024.numel_eq).set = _
  rw [View.set_reshape, View.set_slice_whole]
  exact RowBlocks.oRect_set _ _ _ _ (by rw [k0_off2_eq]; rfl)
omit [FloatOps F] in
theorem set_oWin1 (L : grid0.Coords) : (oWin1 L).view.set = oRows (bL L) 1 := by
  show (((View.whole (main_v0_scv : Ref sig .scVector)).slice (Rect.unit (s := S4096x4x1024) (k0_off3 L) S128x1x1024.size (k0_off3_inb L))).reshape S128x1024
    squeezes_S128x1x1024_S128x1024.numel_eq).set = _
  rw [View.set_reshape, View.set_slice_whole]
  exact RowBlocks.oRect_set _ _ _ _ (by rw [k0_off3_eq]; rfl)
omit [FloatOps F] in
theorem set_oWin2 (L : grid0.Coords) : (oWin2 L).view.set = oRows (bL L) 2 := by
  show (((View.whole (main_v0_scv : Ref sig .scVector)).slice (Rect.unit (s := S4096x4x1024) (k0_off4 L) S128x1x1024.size (k0_off4_inb L))).reshape S128x1024
    squeezes_S128x1x1024_S128x1024.numel_eq).set = _
  rw [View.set_reshape, View.set_slice_whole]
  exact RowBlocks.oRect_set _ _ _ _ (by rw [k0_off4_eq]; rfl)
omit [FloatOps F] in
theorem set_oWin3 (L : grid0.Coords) : (oWin3 L).view.set = oRows (bL L) 3 := by
  show (((View.whole (main_v0_scv : Ref sig .scVector)).slice (Rect.unit (s := S4096x4x1024) (k0_off5 L) S128x1x1024.size (k0_off5_inb L))).reshape S128x1024
    squeezes_S128x1x1024_S128x1024.numel_eq).set = _
  rw [View.set_reshape, View.set_slice_whole]
  exact RowBlocks.oRect_set _ _ _ _ (by rw [k0_off5_eq]; rfl)

/-! ## The worker's two semaphores and its buffer among what it owns -/

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch1.sem)

/-- What one worker is handed and hands back: its block of table rows at contents ft, and its four blocks of result rows
    (one per copy) at contents fo. -/
def blk (d : Dev nD) (ft : Buf (Elt F) (tLoc d)) (fo : Buf (Elt F) (oLoc d)) (c s : ℕ) : sProp 𝕄 :=
  iprop((tLoc d ↦[tRows (base c s)]{fullShare} ft) ∗ (oLoc d ↦[oRows (base c s) 0]{fullShare} fo) ∗ (oLoc d ↦[oRows (base c s) 1]{fullShare} fo)
    ∗ (oLoc d ↦[oRows (base c s) 2]{fullShare} fo) ∗ (oLoc d ↦[oRows (base c s) 3]{fullShare} fo))

section Tile

variable (d : Dev nD) (L : grid0.Coords)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch1.sem : SemLoc sig).isScoped .scVector = true; decide⟩⟩)]

omit [FloatOps F] in
/-- The row buffer is among the subcore's own: it, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
theorem pts_tRow (f : Buf (Elt F) (tLoc d)) :
    ((tRow L).view.loc (V d (cV L) (jV L)) ↦[(tRow L).view.set]{fullShare} f : sProp 𝕄) = tLoc d ↦[tRows (bL L)]{fullShare} f := by
  rw [set_tRow]
omit [FloatOps F] in
theorem pts_oWin0 (f : Buf (Elt F) (oLoc d)) :
    ((oWin0 L).view.loc (V d (cV L) (jV L)) ↦[(oWin0 L).view.set]{fullShare} f : sProp 𝕄) = oLoc d ↦[oRows (bL L) 0]{fullShare} f := by
  rw [set_oWin0]
omit [FloatOps F] in
theorem pts_oWin1 (f : Buf (Elt F) (oLoc d)) :
    ((oWin1 L).view.loc (V d (cV L) (jV L)) ↦[(oWin1 L).view.set]{fullShare} f : sProp 𝕄) = oLoc d ↦[oRows (bL L) 1]{fullShare} f := by
  rw [set_oWin1]
omit [FloatOps F] in
theorem pts_oWin2 (f : Buf (Elt F) (oLoc d)) :
    ((oWin2 L).view.loc (V d (cV L) (jV L)) ↦[(oWin2 L).view.set]{fullShare} f : sProp 𝕄) = oLoc d ↦[oRows (bL L) 2]{fullShare} f := by
  rw [set_oWin2]
omit [FloatOps F] in
theorem pts_oWin3 (f : Buf (Elt F) (oLoc d)) :
    ((oWin3 L).view.loc (V d (cV L) (jV L)) ↦[(oWin3 L).view.set]{fullShare} f : sProp 𝕄) = oLoc d ↦[oRows (bL L) 3]{fullShare} f := by
  rw [set_oWin3]
omit [FloatOps F] in
theorem pts_bW (f : Buf (Elt F) ((V d (cV L) (jV L)).loc cc0_scratch0)) :
    ((bW).view.loc (V d (cV L) (jV L)) ↦{fullShare} f : sProp 𝕄) = (V d (cV L) (jV L)).loc cc0_scratch0 ↦{fullShare} f := rfl

end Tile

/-! ## What a window holds after its copy: the table's rows -/

omit [FloatOps F] in
/-- A buffer written once through a whole view with the payload x agrees, on the view's elements, with any contents
    G that the view reads as x. -/
theorem writes_whole_eq_of_read {sig' : RefSig} {κ : Kind} {sp : Space} {s : Shape} {e : EltTy} {Val : EltTy → Type}
    (v : View sig' κ sp s e) (f G : v.ty.Contents Val) (x : s.Idx → Val e) (hG : v.read Val G = x)
    {i : v.ty.Idx} (hi : i ∈ v.set) : v.writes Val f [⟨Rect.whole s, x⟩] i = G i := by
  obtain ⟨y, -, rfl⟩ := Finset.mem_map.mp hi
  have h1 := congrFun (View.read_writes_whole v f x) y
  have h2 := congrFun hG y
  rw [View.read_apply] at h1 h2
  exact (cast_inj _).mp (h1.trans h2.symm)

omit [FloatOps F] in
/-- Dropping the middle unit axis of a [128, 1, 1024] block keeps row and column. -/
theorem squeeze_idx (y : S128x1024.Idx) :
    Shape.reshapeEquiv (squeezes_S128x1x1024_S128x1024).numel_eq y
      = (ValueIdx.ix3 (⟨(y 0).val, (y 0).isLt⟩ : Fin 128) (0 : Fin 1) (⟨(y 1).val, (y 1).isLt⟩ : Fin 1024) : S128x1x1024.Idx) := by
  refine Shape.reshapeEquiv_eq_of_rowMajor _ ?_
  rw [Shape.rowMajor_val_three, Shape.rowMajor_val_two]
  show ((y 0).val * 1 + 0) * 1024 + (y 1).val = (y 0).val * 1024 + (y 1).val
  omega

section Win
variable (d : Dev nD) (L : grid0.Coords)

omit [FloatOps F] in
/-- Read through the worker's block of the result at copy n (rows bL L …, the copy's axis dropped), the function
    "every copy of row r is table row r" is the table read through the worker's block of table rows. -/
theorem read_win (off : Fin 3 → ℕ) (inb : ∀ a, off a + S128x1x1024.size a ≤ S4096x4x1024.size a) (n : ℕ) (hoff : off = ![bL L, n, 0])
    (T : Buf (Elt F) (tLoc d)) :
    (((oW).slice (Rect.unit (s := S4096x4x1024) off S128x1x1024.size inb) (fun _ => rfl)).squeeze S128x1024 squeezes_S128x1x1024_S128x1024).view.read (Elt F)
        (bcastRows T : Buf (Elt F) (oLoc d))
      = (tRow L).view.read (Elt F) T := by
  subst hoff
  funext y
  show bcastRows T ((Rect.unit (s := S4096x4x1024) ![bL L, n, 0] S128x1x1024.size inb).emb (Shape.reshapeEquiv (squeezes_S128x1x1024_S128x1024).numel_eq y))
    = T ((Rect.unit (s := S8192x1024) (k0_off1 L) S128x1024.size (k0_off1_inb L)).emb y)
  rw [squeeze_idx]
  unfold bcastRows
  refine congrArg T (funext fun a => Fin.ext ?_)
  match a with
  | ⟨0, _⟩ =>
    show bL L + 1 * (y 0).val = (k0_off1 L) 0 + 1 * (y 0).val
    rw [k0_off1_eq]; rfl
  | ⟨1, _⟩ =>
    show 0 + 1 * (y 1).val = (k0_off1 L) 1 + 1 * (y 1).val
    rw [k0_off1_eq]; rfl

omit [FloatOps F] in
/-- After the buffer has received the worker's table rows and been copied into a window of the result, the window holds,
    at each of its entries, the table's row of the same number. -/
theorem landed_eq (off : Fin 3 → ℕ) (inb : ∀ a, off a + S128x1x1024.size a ≤ S4096x4x1024.size a) (n : ℕ) (hoff : off = ![bL L, n, 0])
    (T : Buf (Elt F) (tLoc d)) (fo : Buf (Elt F) (oLoc d)) (fb : Buf (Elt F) ((V d (cV L) (jV L)).loc cc0_scratch0))
    (i : (oLoc d).ty.shape.Idx)
    (hi : i ∈ (((oW).slice (Rect.unit (s := S4096x4x1024) off S128x1x1024.size inb) (fun _ => rfl)).squeeze S128x1024 squeezes_S128x1x1024_S128x1024).view.set) :
    (((oW).slice (Rect.unit (s := S4096x4x1024) off S128x1x1024.size inb) (fun _ => rfl)).squeeze S128x1024 squeezes_S128x1x1024_S128x1024).view.writes (Elt F) fo
        [⟨Rect.whole S128x1024, ReadAs.same.apply ((bW).view.read (Elt F) ((bW).view.write (Elt F) fb (ReadAs.same.apply ((tRow L).view.read (Elt F) T)) Finset.univ))⟩] i
      = (bcastRows T : Buf (Elt F) (oLoc d)) i := by
  refine writes_whole_eq_of_read
    (((oW).slice (Rect.unit (s := S4096x4x1024) off S128x1x1024.size inb) (fun _ => rfl)).squeeze S128x1024 squeezes_S128x1x1024_S128x1024).view
    fo (bcastRows T : Buf (Elt F) (oLoc d)) _ ?_ hi
  rw [read_win d L off inb n hoff T]
  exact (View.read_write_univ (v := (bW).view) (Val := Elt F) fb _).symm

end Win

section Tile2

variable (d : Dev nD) (L : grid0.Coords)

omit [FloatOps F] in
/-- A window of the result after the two copies, as the TensorCore names it: the worker's rows at one copy, holding the
    table's rows. -/
theorem win_pts (off : Fin 3 → ℕ) (inb : ∀ a, off a + S128x1x1024.size a ≤ S4096x4x1024.size a) (n : ℕ) (hoff : off = ![bL L, n, 0])
    (hset : (((oW).slice (Rect.unit (s := S4096x4x1024) off S128x1x1024.size inb) (fun _ => rfl)).squeeze S128x1024 squeezes_S128x1x1024_S128x1024).view.set = oRows (bL L) n)
    (T : Buf (Elt F) (tLoc d)) (fo : Buf (Elt F) (oLoc d)) (fb : Buf (Elt F) ((V d (cV L) (jV L)).loc cc0_scratch0)) :
    ((((oW).slice (Rect.unit (s := S4096x4x1024) off S128x1x1024.size inb) (fun _ => rfl)).squeeze S128x1024 squeezes_S128x1x1024_S128x1024).view.loc (V d (cV L) (jV L))
        ↦[(((oW).slice (Rect.unit (s := S4096x4x1024) off S128x1x1024.size inb) (fun _ => rfl)).squeeze S128x1024 squeezes_S128x1x1024_S128x1024).view.set]{fullShare}
          (((oW).slice (Rect.unit (s := S4096x4x1024) off S128x1x1024.size inb) (fun _ => rfl)).squeeze S128x1024 squeezes_S128x1x1024_S128x1024).view.writes (Elt F) fo
            [⟨Rect.whole S128x1024, ReadAs.same.apply ((bW).view.read (Elt F) ((bW).view.write (Elt F) fb (ReadAs.same.apply ((tRow L).view.read (Elt F) T)) Finset.univ))⟩] : sProp 𝕄)
      = oLoc d ↦[oRows (bL L) n]{fullShare} (bcastRows T : Buf (Elt F) (oLoc d)) := by
  rw [hset]
  exact pointsTo_congr fun i hi => landed_eq d L off inb n hoff T fo fb i (hset ▸ hi)

/-- The task of the worker at grid coordinates L on device d: its block of table rows into its buffer, the buffer into
    the same rows of the result at each of the four copies, and the waits. From the worker's block of the table and its four
    blocks of the result; afterwards the table's block is as it was and the four blocks of the result hold the table's
    rows. -/
theorem tile_body (hF : (K (F := F)).Facts) (O : CellTallies nD τ sig (HIx 1)) (W : Waits sig (HIx 1)) (hO : ∀ g, O g none = 0) :
    (iprop(levAts (K (F := F)).L (K (F := F)).lev ∗ emp
        ∗ blk d (m (tLoc d)) (m (oLoc d)) (L 0).val (L 1).val
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_broadcast_rows L tW (Memref.isWhole_whole _) oW (Memref.isWhole_whole _) bW (Memref.isWhole_whole _) cc0_scratch1 cc0_scoped0)
          fun _ => iprop(blk d (m (tLoc d)) (bcastRows (m (tLoc d)) : Buf (Elt F) (oLoc d)) (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  have _plan : Transfers.BatchOf (V d (cV L) (jV L)) (SemLoc.dma (sig := sig) cc0_scratch1.sem) 4 (windows := true) := trivial
  unfold blk
  simp only [cc0_broadcast_rows_eq_skeleton]; unfold cc0_broadcast_rows_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Ht, Ho0, Ho1, Ho2, Ho3⟩, ⟨⟨%fb, Hb⟩, Hbufs⟩, ⟨HsemA, HsemB, Hsems⟩, HO⟩
  ihave Hmw := ((K (F := F)).mayWaits_none (thr := V d (cV L) (jV L)) hO) $$ Hlv
  ihave Ht' := (Entails.of_eq (pts_tRow (F := F) d L _).symm) $$ Ht
  ihave Ho0' := (Entails.of_eq (pts_oWin0 (F := F) d L _).symm) $$ Ho0
  ihave Ho1' := (Entails.of_eq (pts_oWin1 (F := F) d L _).symm) $$ Ho1
  ihave Ho2' := (Entails.of_eq (pts_oWin2 (F := F) d L _).symm) $$ Ho2
  ihave Ho3' := (Entails.of_eq (pts_oWin3 (F := F) d L _).symm) $$ Ho3
  ihave Hb' := (Entails.of_eq (pts_bW (F := F) d L _).symm) $$ Hb
  sl_exec
  sl_unfold_run_names
  rw [wp_ret]; imodintro
  ihave Ht := (Entails.of_eq (pts_tRow (F := F) d L _)) $$ Ht'
  ihave Ho0 := (Entails.of_eq (win_pts (F := F) d L (k0_off2 L) (k0_off2_inb L) 0 (by rw [k0_off2_eq]; rfl) (set_oWin0 L) (m (tLoc d)) (m (oLoc d)) fb)) $$ Ho0'
  ihave Ho1 := (Entails.of_eq (win_pts (F := F) d L (k0_off3 L) (k0_off3_inb L) 1 (by rw [k0_off3_eq]; rfl) (set_oWin1 L) (m (tLoc d)) (m (oLoc d)) fb)) $$ Ho1'
  ihave Ho2 := (Entails.of_eq (win_pts (F := F) d L (k0_off4 L) (k0_off4_inb L) 2 (by rw [k0_off4_eq]; rfl) (set_oWin2 L) (m (tLoc d)) (m (oLoc d)) fb)) $$ Ho2'
  ihave Ho3 := (Entails.of_eq (win_pts (F := F) d L (k0_off5 L) (k0_off5_inb L) 3 (by rw [k0_off5_eq]; rfl) (set_oWin3 L) (m (tLoc d)) (m (oLoc d)) fb)) $$ Ho3'
  ihave Hb := (Entails.of_eq (pts_bW (F := F) d L _)) $$ Hb'
  isplitl [Ht Ho0 Ho1 Ho2 Ho3]
  · isplitl [Ht]; · iexact Ht
    isplitl [Ho0]; · iexact Ho0
    isplitl [Ho1]; · iexact Ho1
    isplitl [Ho2]; · iexact Ho2
    iexact Ho3
  isplitl [Hb Hbufs]
  · isplitl [Hb]
    · iexists _; iexact Hb
    · iexact Hbufs
  isplitl [HsemA HsemB Hsems]
  · isplitl [HsemA]; · iexact HsemA
    isplitl [HsemB]; · iexact HsemB
    iexact Hsems
  iexists (insert (SemLoc.dma cc0_scratch1.sem, (default : HIx 1)) (insert (SemLoc.dma cc0_scratch1.sem, (default : HIx 1))
    (insert (SemLoc.dma cc0_scratch1.sem, (default : HIx 1)) (insert (SemLoc.dma cc0_scratch1.sem, (default : HIx 1))
      (insert (SemLoc.dma cc0_scoped0.sem, (default : HIx 1)) W))))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile2

end Cert.Proof.KI

end
-- ==== Proof.KILaunch.lean ====
/-
  The row-broadcast kernel's run on the whole device: every weakly fair execution of the TensorCore's program, the two
  sequencers and the thirty-two workers terminates, and leaves the result at "every copy of row r is table row r", the
  two arguments unchanged.

  Before the call the TensorCore holds the table and the result whole. It cuts them into the workers' blocks — the
  table's first 4096 rows into thirty-two blocks of 128 rows (the remaining rows stay with the TensorCore), the result
  into thirty-two times four blocks, one per worker and copy, which cover it — and hands each core its sixteen workers'
  blocks; the sequencer hands each worker its own. Every worker gives its blocks back holding the table's rows
  (the task, proved once at a symbolic worker). Since all workers' blocks of the result are restrictions of ONE function of
  the table, they join back into the result whole at that function.
-/
import proofs.«213697_g1829656068512_cont_8to1_927_13_alg».proof.Proof.KIBody

noncomputable section

namespace Cert.Proof.KI

open Cert.KernelIdeal Cert.KernelIdeal.Gen
open Cert.Proof.RowBlocks (base tRows oRows bcastRows)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry -/

/-- The call hands core c its sixteen workers' blocks, the result's at the launch contents, and takes them back with the
    result's at the table's rows; the sequencer hands worker i its own and takes them back. -/
def P : (K (F := F)).Pay (nD := nD) (Val := Elt F) (Name := ℕ) (U := UU) where
  st := fun q d c => bigSep Finset.univ fun i : Fin ((K (F := F)).nSub q) => blk d (m (tLoc d)) (m (oLoc d)) c.val i.val
  dn := fun q d c => bigSep Finset.univ fun i : Fin ((K (F := F)).nSub q) => blk d (m (tLoc d)) (bcastRows (m (tLoc d)) : Buf (Elt F) (oLoc d)) c.val i.val
  go := fun _ d c i => blk d (m (tLoc d)) (m (oLoc d)) c.val i.val
  td := fun _ d c i => blk d (m (tLoc d)) (bcastRows (m (tLoc d)) : Buf (Elt F) (oLoc d)) c.val i.val
  x := fun _ _ => iprop(emp)

omit [FloatOps F] in
instance blk_storable (d : Dev nD) (ft : Buf (Elt F) (tLoc d)) (fo : Buf (Elt F) (oLoc d)) (c s : ℕ) :
    BI.Storable (upEmb : UEmb _ 𝕄) (blk d ft fo c s) := by
  unfold blk; infer_instance

instance P_storable : (P (F := F) m).IsStorable where
  st q d c := by dsimp only [P]; infer_instance
  dn q d c := by dsimp only [P]; infer_instance
  go q d c i := by dsimp only [P]; infer_instance
  td q d c i := by dsimp only [P]; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_broadcast_rows (coordsV c s)
          tW (Memref.isWhole_whole _) oW (Memref.isWhole_whole _) bW (Memref.isWhole_whole _) cc0_scratch1 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A core's share IS its workers' shares: nothing to split. -/
theorem vecSplit : (K (F := F)).VecSplit' (P m) 0 := by
  intro d c
  show (bigSep Finset.univ fun i : Fin ((K (F := F)).nSub 0) => blk d (m (tLoc d)) (m (oLoc d)) c.val i.val) ⊢ |={Set.univ}=> iprop(
      (bigSep Finset.univ fun i : Fin ((K (F := F)).nSub 0) => blk d (m (tLoc d)) (m (oLoc d)) c.val i.val)
      ∗ ((bigSep Finset.univ fun i : Fin ((K (F := F)).nSub 0) => blk d (m (tLoc d)) (bcastRows (m (tLoc d)) : Buf (Elt F) (oLoc d)) c.val i.val)
          -∗ (bigSep Finset.univ fun i : Fin ((K (F := F)).nSub 0) => blk d (m (tLoc d)) (bcastRows (m (tLoc d)) : Buf (Elt F) (oLoc d)) c.val i.val)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays cut into the workers' blocks, and joined back -/

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The table's rows that some worker owns: the first 4096. -/
def tAll : Finset RowBlocks.TS.Idx := (Finset.univ : Finset (Fin 2 × Fin 16)).biUnion fun p => tRows (base p.1.val p.2.val)

omit [FloatOps F] in
theorem tPts_blocks (d : Dev nD) (ft : Buf (Elt F) (tLoc d)) :
    (tLoc d ↦[tAll]{fullShare} ft : sProp 𝕄)
      = bigSep Finset.univ fun c : Fin 2 => bigSep Finset.univ fun s : Fin 16 => (tLoc d ↦[tRows (base c.val s.val)]{fullShare} ft : sProp 𝕄) := by
  unfold tAll
  rw [pointsTo_biUnion Finset.univ (ℓ := tLoc d) (fun p : Fin 2 × Fin 16 => tRows (base p.1.val p.2.val)) (fun p _ p' _ h => RowBlocks.tRows_disjoint p p' h),
    bigSep_univ_prod]

omit [FloatOps F] in
theorem oPts_blocks (d : Dev nD) (fo : Buf (Elt F) (oLoc d)) :
    (oLoc d ↦{fullShare} fo : sProp 𝕄)
      = bigSep Finset.univ fun c : Fin 2 => bigSep Finset.univ fun s : Fin 16 =>
          iprop((oLoc d ↦[oRows (base c.val s.val) 0]{fullShare} fo) ∗ (oLoc d ↦[oRows (base c.val s.val) 1]{fullShare} fo)
            ∗ (oLoc d ↦[oRows (base c.val s.val) 2]{fullShare} fo) ∗ (oLoc d ↦[oRows (base c.val s.val) 3]{fullShare} fo)) := by
  have h1 : (oLoc d ↦{fullShare} fo : sProp 𝕄)
      = oLoc d ↦[(Finset.univ : Finset (Fin 2 × Fin 16 × Fin 4)).biUnion fun p => oRows (base p.1.val p.2.1.val) p.2.2.val]{fullShare} fo := by
    rw [RowBlocks.oRows_cover]
  rw [h1, pointsTo_biUnion Finset.univ (ℓ := oLoc d) (fun p : Fin 2 × Fin 16 × Fin 4 => oRows (base p.1.val p.2.1.val) p.2.2.val)
      (fun p _ p' _ h => RowBlocks.oRows_disjoint p p' h), bigSep_univ_prod]
  refine bigSep_congr fun c _ => ?_
  rw [bigSep_univ_prod]
  refine bigSep_congr fun s _ => ?_
  exact bigSep_fin4 (F := F) _

omit [FloatOps F] in
/-- The workers' rows of the table and the result whole are all the workers' blocks. -/
theorem blocks_eq (d : Dev nD) (ft : Buf (Elt F) (tLoc d)) (fo : Buf (Elt F) (oLoc d)) :
    (iprop((tLoc d ↦[tAll]{fullShare} ft) ∗ (oLoc d ↦{fullShare} fo)) : sProp 𝕄)
      = bigSep Finset.univ fun c : Fin 2 => bigSep Finset.univ fun s : Fin 16 => blk d ft fo c.val s.val := by
  rw [tPts_blocks, oPts_blocks, ← bigSep_sep']
  refine bigSep_congr fun c _ => ?_
  rw [← bigSep_sep']
  rfl

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = bigSep Finset.univ fun c : Fin 2 => bigSep Finset.univ fun s : Fin 16 => blk d (m (tLoc d)) (m (oLoc d)) c.val s.val := rfl
theorem dn0_eq (d : Dev nD) : (bigSep Finset.univ fun c : Fin ((K (F := F)).nCore 0) => (P m).dn 0 d c)
    = bigSep Finset.univ fun c : Fin 2 => bigSep Finset.univ fun s : Fin 16 => blk d (m (tLoc d)) (bcastRows (m (tLoc d)) : Buf (Elt F) (oLoc d)) c.val s.val := rfl

/-- What @main leaves the claim: the two arguments at their launch contents, the result at the table's rows. -/
abbrev FIN (d : Dev nD) : sProp 𝕄 :=
  iprop((aLoc d ↦{fullShare} m (aLoc d)) ∗ (tLoc d ↦{fullShare} m (tLoc d)) ∗ (oLoc d ↦{fullShare} (bcastRows (m (tLoc d)) : Buf (Elt F) (oLoc d))))

/-- @main on device d's TensorCore: the one call, from the table and the result cut into the workers' blocks. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ht, Ho⟩, -, -⟩, -⟩
  ihave Ht2 := (pointsTo_split_subset (ℓ := tLoc d) (q := fullShare) (f := m (tLoc d)) (Finset.subset_univ tAll)).1 $$ Ht
  icases Ht2 with ⟨Htw, Htr⟩
  ihave Hblk := (Entails.of_eq (blocks_eq (F := F) d (m (tLoc d)) (m (oLoc d)))) $$ [Htw Ho]
  · isplitl [Htw] <;> iassumption
  iapply ((K (F := F)).wp_run (D (F := F)) 𝒱 (EH := EH) (P := P m) κ d 0) $$ [Hst Hblk Ha Htr]
  isplitr; · iexact Hctx
  isplitl [Hst]; · iexact Hst
  isplitl [Hblk]
  · rw [st0_eq]; iexact Hblk
  iintro ⟨Hst, Hdn⟩
  ihave Hdn' := (Entails.of_eq ((dn0_eq m d).trans (blocks_eq (F := F) d (m (tLoc d)) (bcastRows (m (tLoc d)) : Buf (Elt F) (oLoc d))).symm)) $$ Hdn
  icases Hdn' with ⟨Htw, Ho⟩
  ihave Ht := (pointsTo_split_subset (ℓ := tLoc d) (q := fullShare) (f := m (tLoc d)) (Finset.subset_univ tAll)).2 $$ [Htw Htr]
  · isplitl [Htw] <;> iassumption
  imodintro
  isplitl [Hst]; · iexact Hst
  isplitl [Ha]; · iexact Ha
  isplitl [Ht]; · iexact Ht
  iexact Ho

def fq (d : Dev nD) (s' : Phys nD τ sig (Elt F)) : Prop :=
  s'.mem.mem (aLoc d) = m (aLoc d) ∧ s'.mem.mem (tLoc d) = m (tLoc d) ∧ s'.mem.mem (oLoc d) = (bcastRows (m (tLoc d)) : Buf (Elt F) (oLoc d))

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := (bcastRows (m (tLoc d)) : Buf (Elt F) (oLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r => ∀ c : Dev nD,
  r.2.mem (oLoc c) = (bcastRows (m (tLoc c)) : Buf (Elt F) (oLoc c)) ∧ r.2.mem (aLoc c) = m (aLoc c) ∧ r.2.mem (tLoc c) = m (tLoc c)

/-- Every weakly fair execution of the device's threads terminates, nothing faulting; the result ends at "every copy of row
    r is table row r" of the launch table, and the two arguments end unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.Proof.KI

end
-- ==== Proof.RefRun.lean ====
/-
  The reference program's run, read back.

  The reference builds the index array pos[r, n] = r (an iota over the 4096 rows, copied to the 4 copies), passes
  it to jnp.take: negative indices are shifted by the table's height 8192, the indices are marked valid when they lie
  in [0, 8191], the table's rows are gathered at them, and an invalid index would read a fill value. Here the host
  operations are listed in order (the helper functions' lines at their calls), the run's result is read off the list
  as one composed term of the table, and that term is named `refOut`.
-/
import proofs.«213697_g1829656068512_cont_8to1_927_13_alg».proof.ReferenceIdeal
import proofs.«213697_g1829656068512_cont_8to1_927_13_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: the four that build the index array, then jnp.take's (its one call of jnp.where
    at the call's place). -/
abbrev ops : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    unary main_v1 main_v2 (broadcastInDim S4x4096 ![0, 1] bcast_S1x4096_S4x4096_0_1 : (⟨S1x4096, .i32⟩ : BufTy).Contents (Elt F) → (⟨S4x4096, .i32⟩ : BufTy).Contents (Elt F)),
    unary main_v2 main_v3 ((transpose S4096x4 [1, 0] · transposes_S4x4096_S4096x4_1_0) : (⟨S4x4096, .i32⟩ : BufTy).Contents (Elt F) → (⟨S4096x4, .i32⟩ : BufTy).Contents (Elt F)),
    TRef.nullary main_call0.c (constantI S_ 32 0#32),
    TRef.unary main_call0.c main_call0.v0 (broadcastInDim S4096x4 ![] bcast_S_S4096x4),
    TRef.binary (.of main_v3) main_call0.v0 main_call0.v1 (cmpi .slt),
    TRef.nullary main_call0.c_0 (constantI S_ 32 8192#32),
    TRef.unary main_call0.c_0 main_call0.v2 (broadcastInDim S4096x4 ![] bcast_S_S4096x4),
    TRef.binary (.of main_v3) main_call0.v2 main_call0.v3 addi,
    TRef.ternary main_call0.v1 main_call0.v3 (.of main_v3) main_call0.call0.v0 select,
    TRef.unary main_call0.call0.v0 main_call0.v5 (broadcastInDim S4096x4x1 ![0, 1] bcast_S4096x4_S4096x4x1_0_1),
    TRef.nullary main_call0.c_1 (constantI S1 32 8191#32),
    TRef.nullary main_call0.c_2 (constantI S_ 32 0#32),
    TRef.unary main_call0.c_2 main_call0.v6 (broadcastInDim S4096x4x1 ![] bcast_S_S4096x4x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x4x1 ![0, 1, 2] bcast_S1x1x1_S4096x4x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x4x1_S4096x4_d2 h_S_),
    TRef.binary (.of main_arg1) main_call0.v5 main_call0.v13 (fun x i => Host.gather gather_S8192x1024_S4096x4x1_S4096x4x1024_2_0_n_n_0_2_11024 x i),
    TRef.unary main_call0.v12 main_call0.v14 (broadcastInDim S4096x4x1024 ![0, 1] bcast_S4096x4_S4096x4x1024_0_1),
    TRef.nullary main_call0.cst (constant S_ .f32 0x7FC00000#32),
    TRef.unary main_call0.cst main_call0.v15 (broadcastInDim S4096x4x1024 ![] bcast_S_S4096x4x1024),
    TRef.ternary main_call0.v14 main_call0.v13 main_call0.v15 main_call0.v16 select ]

set_option maxRecDepth 2048 in
/-- @main is that straight line: the two helper functions' definitions unfolded at their calls. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- The index array: pos[r, n] = r as a 32-bit word. -/
def pos : IVec S4096x4 32 :=
  transpose S4096x4 [1, 0] (broadcastInDim S4x4096 ![0, 1] bcast_S1x4096_S4x4096_0_1 (broadcastInDim S1x4096 ![1] bcast_S4096_S1x4096_1 (iotaInDim S4096 32 0))) transposes_S4x4096_S4096x4_1_0

/-- jnp.take's indices: a negative index shifted by the table's height, with a trailing unit axis. -/
def idx3 : IVec S4096x4x1 32 :=
  broadcastInDim S4096x4x1 ![0, 1] bcast_S4096x4_S4096x4x1_0_1
    (select (cmpi .slt pos (broadcastInDim S4096x4 ![] bcast_S_S4096x4 (constantI S_ 32 0#32)))
      (addi pos (broadcastInDim S4096x4 ![] bcast_S_S4096x4 (constantI S_ 32 8192#32))) pos)

/-- Which indices are valid: in [0, 8191]. -/
def valid : IVec S4096x4 1 :=
  Host.reduce IntOp.andi
    (andi (cmpi .sge idx3 (broadcastInDim S4096x4x1 ![] bcast_S_S4096x4x1 (constantI S_ 32 0#32)))
      (cmpi .sle idx3 (broadcastInDim S4096x4x1 ![0, 1, 2] bcast_S1x1x1_S4096x4x1_0_1_2 (broadcastInDim S1x1x1 ![2] bcast_S1_S1x1x1_2 (constantI S1 32 8191#32)))))
    (constantI S_ 1 1#1) reducesTo_S4096x4x1_S4096x4_d2 h_S_

/-- The reference's result as one term of the table: the gathered rows where the index is valid, the fill value elsewhere. -/
def refOut (T : FVec F S8192x1024 .f32) : FVec F S4096x4x1024 .f32 :=
  select (broadcastInDim S4096x4x1024 ![0, 1] bcast_S4096x4_S4096x4x1024_0_1 valid)
    (Host.gather gather_S8192x1024_S4096x4x1_S4096x4x1024_2_0_n_n_0_2_11024 T idx3)
    (broadcastInDim S4096x4x1024 ![] bcast_S_S4096x4x1024 (constant S_ .f32 0x7FC00000#32))

/-- The operations' fold at the result buffer is `refOut` of the table. -/
theorem out_eq (V : Valuation τ sig (Elt F)) :
    after ops V (main_v4 : DevRef τ sig) = refOut (F := F) (V (main_arg1 : DevRef τ sig)) := by
  unfold refOut valid idx3 pos
  after_results
  simp only [cast_eq]

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

/-- Every weakly fair execution of the reference terminates, with the result at `refOut` of the table and the two
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = refOut (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's result, index by index: every copy n of result row r is table row r.

  The index array holds pos[r, n] = r. A row number r < 4096 is a non-negative 32-bit word, so jnp.take's shift of
  negative indices leaves it alone, its validity test 0 ≤ r ≤ 8191 passes everywhere, and the gather reads the
  table's row r (the clamp into [0, 8191] changes nothing). The fill value is never selected.
-/
import proofs.«213697_g1829656068512_cont_8to1_927_13_alg».proof.Proof.RefRun
import proofs.«213697_g1829656068512_cont_8to1_927_13_alg».proof.Proof.RowBlocks
import Idealize.ShloMosaic.Lib.ValueIdx
import Idealize.ShloMosaic.Lib.Pipeline.Value
import Idealize.ShloMosaic.Lib.IdealHost
import Idealize.ShloMosaic.Lib.Affine
import Idealize.ShloMosaic.PureOps.Reduce

noncomputable section

namespace Cert.ReferenceIdeal.RefValue

open Cert.ReferenceIdeal Cert.ReferenceIdeal.Gen Cert.ReferenceIdeal.RefRun Idealize.ShloMosaic Idealize.ShloMosaic.ValueIdx
open Cert.Proof.RowBlocks (bcastRows)

/-! ## Row numbers as 32-bit words -/

theorem word_toNat (r : ℕ) (hr : r < 4096) : (BitVec.ofNat 32 r).toNat = r := by
  rw [BitVec.toNat_ofNat]; exact Nat.mod_eq_of_lt (by omega)

theorem word_toInt (r : ℕ) (hr : r < 4096) : (BitVec.ofNat 32 r).toInt = (r : ℤ) := by
  have h232 : 2 * r < 2 ^ 32 := by
    have : (2 : ℕ) ^ 32 = 4294967296 := by norm_num
    omega
  rw [BitVec.toInt_eq_toNat_cond, word_toNat r hr, if_pos h232]

/-- A row number is not negative, -/
theorem word_slt_zero (r : ℕ) (hr : r < 4096) : IntOp.cmpi .slt (BitVec.ofNat 32 r) 0#32 = 0#1 := by
  refine eq_zero_of_ne_one fun h => ?_
  have := IntOp.cmpi_slt.mp h
  rw [word_toInt r hr, show (0#32 : BitVec 32).toInt = 0 from rfl] at this
  omega
/-- is at least 0, -/
theorem word_sge_zero (r : ℕ) (hr : r < 4096) : IntOp.cmpi .sge (BitVec.ofNat 32 r) 0#32 = 1#1 := by
  refine IntOp.cmpi_sge.mpr ?_
  rw [word_toInt r hr, show (0#32 : BitVec 32).toInt = 0 from rfl]
  omega
/-- and at most the table's last row. -/
theorem word_sle_last (r : ℕ) (hr : r < 4096) : IntOp.cmpi .sle (BitVec.ofNat 32 r) 8191#32 = 1#1 := by
  refine IntOp.cmpi_sle.mpr ?_
  rw [word_toInt r hr, show (8191#32 : BitVec 32).toInt = 8191 from by decide]
  omega

/-- An "and" over words that are all 1, from 1, is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    refine foldl_andi_one f l _ ?_ fun n hn => h n (List.mem_cons_of_mem _ hn)
    rw [hi, h a (List.mem_cons_self ..)]; decide

/-! ## The index array and jnp.take's stages at an index -/

/-- pos[r, n] = r. -/
theorem pos_apply (r : Fin 4096) (n : Fin 4) : pos (ix2 r n) = BitVec.ofNat 32 r.val := by
  unfold pos
  refine (transpose_apply (s := S4x4096) (t := S4096x4) [1, 0] _ transposes_S4x4096_S4096x4_1_0 (ix2 r n) (ix2 n r) ?_).trans ?_
  · intro b; match b with | ⟨0, _⟩ => rfl | ⟨1, _⟩ => rfl
  refine (broadcastInDim_apply (s := S1x4096) (t := S4x4096) ![0, 1] bcast_S1x4096_S4x4096_0_1 _ (ix2 n r) (ix2 (0 : Fin 1) r) ?_).trans ?_
  · intro a; match a with | ⟨0, _⟩ => rfl | ⟨1, _⟩ => rfl
  refine (broadcastInDim_apply (s := S4096) (t := S1x4096) ![1] bcast_S4096_S1x4096_1 _ (ix2 (0 : Fin 1) r) (ix1 r) ?_).trans ?_
  · intro a; match a with | ⟨0, _⟩ => rfl
  rfl

/-- jnp.take's index at (r, n) is still r: a row number is not negative, so it is not shifted. -/
theorem idx3_apply (r : Fin 4096) (n : Fin 4) (z : Fin 1) : idx3 (ix3 r n z) = BitVec.ofNat 32 r.val := by
  unfold idx3
  refine (broadcastInDim_apply (s := S4096x4) (t := S4096x4x1) ![0, 1] bcast_S4096x4_S4096x4x1_0_1 _ (ix3 r n z) (ix2 r n) ?_).trans ?_
  · intro a; match a with | ⟨0, _⟩ => rfl | ⟨1, _⟩ => rfl
  show Scalar.select (IntOp.cmpi .slt (pos (ix2 r n)) 0#32) (IntOp.addi (pos (ix2 r n)) 8192#32) (pos (ix2 r n)) = _
  rw [pos_apply, word_slt_zero r.val r.isLt, select_zero]

/-- Every index is valid. -/
theorem valid_apply (j : S4096x4.Idx) : valid j = 1#1 := by
  unfold valid
  rw [Host.reduce_eq_foldl]
  refine foldl_andi_one _ _ _ rfl fun i _ => ?_
  obtain ⟨r, n, z, rfl⟩ : ∃ (r : Fin 4096) (n : Fin 4) (z : Fin 1), i = ix3 r n z := ⟨i 0, i 1, i 2, eq_ix3 i⟩
  show IntOp.andi (IntOp.cmpi .sge (idx3 (ix3 r n z)) 0#32) (IntOp.cmpi .sle (idx3 (ix3 r n z)) 8191#32) = 1#1
  rw [idx3_apply]
  exact IntOp.andi_eq_one.mpr ⟨word_sge_zero r.val r.isLt, word_sle_last r.val r.isLt⟩

/-- The gather of whole table rows at (r, n, k): column k of the table's row named by the index at (r, n), read signed
    and clamped into the table. -/
theorem gather_apply {α : Type} (T : S8192x1024.Idx → α) (idx : IVec S4096x4x1 32) (r : Fin 4096) (n : Fin 4) (k : Fin 1024) :
    Host.gather gather_S8192x1024_S4096x4x1_S4096x4x1024_2_0_n_n_0_2_11024 T idx (ix3 r n k)
      = T (ix2 ⟨min (idx (ix3 r n (0 : Fin 1))).toInt.toNat 8191, by omega⟩ k) := by
  unfold Host.gather
  refine congrArg T (funext fun a => Fin.ext ?_)
  match a with
  | ⟨0, h0⟩ =>
    -- the indexed axis: the start index, no batch and no offset coordinate
    show GatherDims.start _ (ix3 r n k) idx ⟨0, h0⟩ + GatherDims.batchCoord _ (ix3 r n k) ⟨0, h0⟩ + GatherDims.offCoord _ (ix3 r n k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S8192x1024.rank) ∈ gather_S8192x1024_S4096x4x1_S4096x4x1024_2_0_n_n_0_2_11024.startIndexMap from List.mem_singleton.mpr rfl)]
    have hsi : gather_S8192x1024_S4096x4x1_S4096x4x1024_2_0_n_n_0_2_11024.siIdx (ix3 r n k)
        ⟨List.idxOf (⟨0, h0⟩ : Fin S8192x1024.rank) gather_S8192x1024_S4096x4x1_S4096x4x1024_2_0_n_n_0_2_11024.startIndexMap,
          List.idxOf_lt_length_iff.2 (List.mem_singleton.mpr rfl)⟩ = ix3 r n (0 : Fin 1) := by
      funext b; refine Fin.ext ?_
      match b with
      | ⟨0, _⟩ => rfl
      | ⟨1, _⟩ => rfl
      | ⟨2, _⟩ => rfl
    rw [hsi]
    rfl
  | ⟨1, h1⟩ =>
    -- the row axis: no start index, no batch coordinate, the result's last coordinate as the offset
    show GatherDims.start _ (ix3 r n k) idx ⟨1, h1⟩ + GatherDims.batchCoord _ (ix3 r n k) ⟨1, h1⟩ + GatherDims.offCoord _ (ix3 r n k) ⟨1, h1⟩ = k.val
    have hne : (⟨1, h1⟩ : Fin S8192x1024.rank) ∉ ([0] : List (Fin S8192x1024.rank)) :=
      fun h => Nat.one_ne_zero (Fin.ext_iff.mp (List.mem_singleton.mp h))
    have hst : GatherDims.start gather_S8192x1024_S4096x4x1_S4096x4x1024_2_0_n_n_0_2_11024 (ix3 r n k) idx ⟨1, h1⟩ = 0 := by
      unfold GatherDims.start; exact dif_neg hne
    rw [GatherDims.batchCoord_eq_zero _ _ _ List.not_mem_nil, hst]
    unfold GatherDims.offCoord
    rw [dif_pos ((GatherDims.mem_sKept gather_S8192x1024_S4096x4x1_S4096x4x1024_2_0_n_n_0_2_11024 ⟨1, h1⟩).mpr ⟨hne, List.not_mem_nil⟩)]
    simp only [Nat.zero_add, Nat.add_zero]
    rfl

variable {F : FTy → Type} [FloatOps F]

/-- The reference's result is the table's rows, one copy per n. -/
theorem refOut_eq (T : FVec F S8192x1024 .f32) : refOut (F := F) T = bcastRows T := by
  funext i
  obtain ⟨r, n, k, rfl⟩ : ∃ (r : Fin 4096) (n : Fin 4) (k : Fin 1024), i = ix3 r n k := ⟨i 0, i 1, i 2, eq_ix3 i⟩
  unfold refOut
  show Scalar.select (broadcastInDim S4096x4x1024 ![0, 1] bcast_S4096x4_S4096x4x1024_0_1 valid (ix3 r n k))
      (Host.gather gather_S8192x1024_S4096x4x1_S4096x4x1024_2_0_n_n_0_2_11024 T idx3 (ix3 r n k)) _ = _
  rw [broadcastInDim_apply (s := S4096x4) (t := S4096x4x1024) ![0, 1] bcast_S4096x4_S4096x4x1024_0_1 valid (ix3 r n k) (ix2 r n)
      (by intro a; match a with | ⟨0, _⟩ => rfl | ⟨1, _⟩ => rfl),
    valid_apply, select_one, gather_apply]
  refine congrArg T ?_
  have hr := r.isLt
  refine congrArg (fun a => ix2 a k) (Fin.ext ?_)
  show min (idx3 (ix3 r n (0 : Fin 1))).toInt.toNat 8191 = r.val
  rw [idx3_apply, word_toInt r.val r.isLt, Int.toNat_natCast]; omega

end Cert.ReferenceIdeal.RefValue

end
-- ==== Proof.lean ====
/-
  A kernel that copies table rows into every copy of a result, against jnp.take at the identity index array.

  The kernel: 32 workers (2 cores × 16 subcores); worker number w = 2·s + c copies the 128 table rows 128·w … 128·w + 127
  into its buffer and from there into the same rows of the result at each of the four copies, so that
  result[r, n, k] = table[r, k] for r < 4096, n < 4, k < 1024. The reference: jnp.take(table, pos, axis = 0) with
  pos[r, n] = r, which reads the same entries: the indices are row numbers, neither negative nor out of range, so the
  shift, the validity mask and the clamp of jnp.take change nothing. Both sides only move data: no arithmetic on the
  table's entries occurs, the equality holds at every float instance, and the precondition is not used.

  The three frames are the two kernel runs (word-level and idealized: the same proof at two instances) and the reference's
  run, each with the result forgotten; the idealization rewrote nothing; the two idealized runs end at one function of
  the table.
-/
import proofs.«213697_g1829656068512_cont_8to1_927_13_alg».proof.Defs
import proofs.«213697_g1829656068512_cont_8to1_927_13_alg».proof.Proof.Gen.Kernel
import proofs.«213697_g1829656068512_cont_8to1_927_13_alg».proof.Proof.Gen.Kernel.Skeleton
import proofs.«213697_g1829656068512_cont_8to1_927_13_alg».proof.Proof.Gen.KernelIdeal
import proofs.«213697_g1829656068512_cont_8to1_927_13_alg».proof.Proof.Gen.KernelIdeal.Skeleton
import proofs.«213697_g1829656068512_cont_8to1_927_13_alg».proof.Proof.Gen.ReferenceIdeal
import proofs.«213697_g1829656068512_cont_8to1_927_13_alg».proof.Proof.Gen.Pre_input_domain
import Idealize.ShloMosaic.Adequacy
import Idealize.ShloMosaic.Init
import proofs.«213697_g1829656068512_cont_8to1_927_13_alg».proof.Proof.KBLaunch
import proofs.«213697_g1829656068512_cont_8to1_927_13_alg».proof.Proof.KILaunch
import proofs.«213697_g1829656068512_cont_8to1_927_13_alg».proof.Proof.RefValue

noncomputable section

namespace Cert.Proof

open Idealize.ShloMosaic Idealize.SL.Sem
open Cert.Proof.RowBlocks (bcastRows)

/-- The word-level kernel runs to the end and leaves its two arguments unchanged. -/
theorem frame_k : Cert.frame_Kernel := fun m ρ _ =>
  (θ_run Cert.Kernel.defs _ _).mono (fun _ h c => ⟨(h c).2.1, (h c).2.2⟩) (Cert.Proof.KB.run_main (F := Bits) m ρ)

/-- So does the idealized kernel. -/
theorem frame_ki : Cert.frame_KernelIdeal := fun m ρ _ =>
  (θ_run Cert.KernelIdeal.defs _ _).mono (fun _ h c => ⟨(h c).2.1, (h c).2.2⟩) (Cert.Proof.KI.run_main (F := Ideal) m ρ)

/-- And the reference: its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both idealized programs end with the result at "every copy of row r is table
    row r": the kernel by its run, the reference by its run read index by index. -/
theorem algebraic : Cert.algebraic_KernelIdeal_ReferenceIdeal := by
  intro m ρ m' ρ' _ hagree
  refine ⟨fun c => (bcastRows (m ((c.tc : Thread Cert.KernelIdeal.nD Cert.KernelIdeal.τ).loc Cert.KernelIdeal.main_arg1)) :
      Buf (Elt Ideal) ((c.tc : Thread Cert.KernelIdeal.nD Cert.KernelIdeal.τ).loc Cert.KernelIdeal.main_v0)), ?_, ?_⟩
  · exact (θ_run Cert.KernelIdeal.defs _ _).mono (fun _ h c => h c) (Cert.Proof.KI.run_main (F := Ideal) m ρ)
  · refine (θ_run Cert.ReferenceIdeal.defs _ _).mono (fun _ h c => ⟨?_, (h c).2⟩) (Cert.ReferenceIdeal.RefRun.run (F := Ideal) m' ρ')
    exact ((h c).1.trans (Cert.ReferenceIdeal.RefValue.refOut_eq _)).trans (congrArg bcastRows (hagree c).2)

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
